-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x196x768 : Shape := ⟨3, ![32, 196, 768]⟩
abbrev S_ : Shape := ⟨0, ![]⟩

class Facts : Prop where
  bcast_S_S32x196x768 : S_.BroadcastsInDim S32x196x768 (![] : Fin 0 → Fin S32x196x768.rank)
  reducesTo_S32x196x768_S_d0_1_2 : S32x196x768.ReducesTo [0, 1, 2] S_
  h_S_ : 0 < S_.numel

variable [Facts]

def fn {F : FTy → Type} [FloatOps F] (main_arg0 : FVec F S32x196x768 .f32) (main_arg1 : FVec F S32x196x768 .f32) : IVec S_ 1 :=
  let main_v0 : FVec F S32x196x768 .f32 := Host.absf main_arg0
  let main_cst : FVec F S_ .f32 := constant S_ .f32 0x7F800000#32
  let main_v1 : FVec F S32x196x768 .f32 := broadcastInDim S32x196x768 ![] bcast_S_S32x196x768 main_cst
  let main_v2 : IVec S32x196x768 1 := cmpf .olt main_v0 main_v1
  let main_c : IVec S_ 1 := constantI S_ 1 1#1
  let main_v3 : IVec S_ 1 := (fun x v => Host.reduce IntOp.andi x v reducesTo_S32x196x768_S_d0_1_2 h_S_) main_v2 main_c
  let main_v4 : FVec F S32x196x768 .f32 := Host.absf main_arg1
  let main_cst_0 : FVec F S_ .f32 := constant S_ .f32 0x7F800000#32
  let main_v5 : FVec F S32x196x768 .f32 := broadcastInDim S32x196x768 ![] bcast_S_S32x196x768 main_cst_0
  let main_v6 : IVec S32x196x768 1 := cmpf .olt main_v4 main_v5
  let main_c_1 : IVec S_ 1 := constantI S_ 1 1#1
  let main_v7 : IVec S_ 1 := (fun x v => Host.reduce IntOp.andi x v reducesTo_S32x196x768_S_d0_1_2 h_S_) main_v6 main_c_1
  let main_v8 : IVec S_ 1 := andi main_v3 main_v7
  main_v8
-- ==== Kernel.lean ====
abbrev S32x196x768 : Shape := ⟨3, ![32, 196, 768]⟩
abbrev S_ : Shape := ⟨0, ![]⟩
abbrev S32x196 : Shape := ⟨2, ![32, 196]⟩
abbrev S32x196x1 : Shape := ⟨3, ![32, 196, 1]⟩
abbrev S6272x768 : Shape := ⟨2, ![6272, 768]⟩
abbrev S6272 : Shape := ⟨1, ![6272]⟩
abbrev S1x6272 : Shape := ⟨2, ![1, 6272]⟩
abbrev S8x6272 : Shape := ⟨2, ![8, 6272]⟩
abbrev S32x8x128 : Shape := ⟨3, ![32, 8, 128]⟩
abbrev S1x196x768 : Shape := ⟨3, ![1, 196, 768]⟩
abbrev S1x8x128 : Shape := ⟨3, ![1, 8, 128]⟩
abbrev S196x768 : Shape := ⟨2, ![196, 768]⟩
abbrev S196x6272 : Shape := ⟨2, ![196, 6272]⟩
abbrev S1x1x6272 : Shape := ⟨3, ![1, 1, 6272]⟩
abbrev S1 : Shape := ⟨1, ![1]⟩
abbrev S1x1x1 : Shape := ⟨3, ![1, 1, 1]⟩
abbrev S8x128 : Shape := ⟨2, ![8, 128]⟩
abbrev S32x1x1 : Shape := ⟨3, ![32, 1, 1]⟩
abbrev S32 : Shape := ⟨1, ![32]⟩

abbrev nBuf : Space → Nat
  | .hbm => 62
  | .vmem => 9
  | .smem => 0
  | _ => 0

abbrev bufTy : (tb : Table) → Fin (tcTables nBuf tb) → BufTy
  | .hbm, ⟨0, _⟩ => ⟨S32x196x768, .f32⟩
  | .hbm, ⟨1, _⟩ => ⟨S32x196x768, .f32⟩
  | .hbm, ⟨2, _⟩ => ⟨S32x196x768, .f32⟩
  | .hbm, ⟨3, _⟩ => ⟨S_, .f32⟩
  | .hbm, ⟨4, _⟩ => ⟨S32x196, .f32⟩
  | .hbm, ⟨5, _⟩ => ⟨S32x196x1, .f32⟩
  | .hbm, ⟨6, _⟩ => ⟨S32x196x1, .f32⟩
  | .hbm, ⟨7, _⟩ => ⟨S_, .f32⟩
  | .hbm, ⟨8, _⟩ => ⟨S32x196x1, .f32⟩
  | .hbm, ⟨9, _⟩ => ⟨S32x196x1, .f32⟩
  | .hbm, ⟨10, _⟩ => ⟨S32x196x768, .f32⟩
  | .hbm, ⟨11, _⟩ => ⟨S32x196x768, .f32⟩
  | .hbm, ⟨12, _⟩ => ⟨S32x196x768, .bf16⟩
  | .hbm, ⟨13, _⟩ => ⟨S32x196x768, .f32⟩
  | .hbm, ⟨14, _⟩ => ⟨S_, .f32⟩
  | .hbm, ⟨15, _⟩ => ⟨S32x196, .f32⟩
  | .hbm, ⟨16, _⟩ => ⟨S32x196x1, .f32⟩
  | .hbm, ⟨17, _⟩ => ⟨S32x196x1, .f32⟩
  | .hbm, ⟨18, _⟩ => ⟨S_, .f32⟩
  | .hbm, ⟨19, _⟩ => ⟨S32x196x1, .f32⟩
  | .hbm, ⟨20, _⟩ => ⟨S32x196x1, .f32⟩
  | .hbm, ⟨21, _⟩ => ⟨S32x196x768, .f32⟩
  | .hbm, ⟨22, _⟩ => ⟨S32x196x768, .f32⟩
  | .hbm, ⟨23, _⟩ => ⟨S32x196x768, .bf16⟩
  | .hbm, ⟨24, _⟩ => ⟨S6272x768, .bf16⟩
  | .hbm, ⟨25, _⟩ => ⟨S6272x768, .bf16⟩
  | .hbm, ⟨26, _⟩ => ⟨S6272, .i32⟩
  | .hbm, ⟨27, _⟩ => ⟨S_, .i32⟩
  | .hbm, ⟨28, _⟩ => ⟨S_, .i32⟩
  | .hbm, ⟨29, _⟩ => ⟨S6272, .i32⟩
  | .hbm, ⟨30, _⟩ => ⟨S6272, .i32⟩
  | .hbm, ⟨31, _⟩ => ⟨S6272, .i32⟩
  | .hbm, ⟨32, _⟩ => ⟨S_, .i32⟩
  | .hbm, ⟨33, _⟩ => ⟨S6272, .i32⟩
  | .hbm, ⟨34, _⟩ => ⟨S6272, .i1⟩
  | .hbm, ⟨35, _⟩ => ⟨S6272, .i32⟩
  | .hbm, ⟨36, _⟩ => ⟨S6272, .i32⟩
  | .hbm, ⟨37, _⟩ => ⟨S_, .i32⟩
  | .hbm, ⟨38, _⟩ => ⟨S6272, .i32⟩
  | .hbm, ⟨39, _⟩ => ⟨S6272, .i1⟩
  | .hbm, ⟨40, _⟩ => ⟨S6272, .i1⟩
  | .hbm, ⟨41, _⟩ => ⟨S_, .i32⟩
  | .hbm, ⟨42, _⟩ => ⟨S6272, .i32⟩
  | .hbm, ⟨43, _⟩ => ⟨S6272, .i32⟩
  | .hbm, ⟨44, _⟩ => ⟨S6272, .i32⟩
  | .hbm, ⟨45, _⟩ => ⟨S1x6272, .i32⟩
  | .hbm, ⟨46, _⟩ => ⟨S8x6272, .i32⟩
  | .hbm, ⟨47, _⟩ => ⟨S32x8x128, .f32⟩
  | .hbm, ⟨48, _⟩ => ⟨S32x8x128, .f32⟩
  | .hbm, ⟨49, _⟩ => ⟨S32x1x1, .f32⟩
  | .hbm, ⟨50, _⟩ => ⟨S32, .f32⟩
  | .hbm, ⟨51, _⟩ => ⟨S_, .f32⟩
  | .hbm, ⟨52, _⟩ => ⟨S_, .f32⟩
  | .hbm, ⟨53, _⟩ => ⟨S32x1x1, .f32⟩
  | .hbm, ⟨54, _⟩ => ⟨S32, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .local _ .vmem, ⟨0, _⟩ => ⟨S1x196x768, .bf16⟩
  | .local _ .vmem, ⟨1, _⟩ => ⟨S1x196x768, .bf16⟩
  | .local _ .vmem, ⟨2, _⟩ => ⟨S6272x768, .bf16⟩
  | .local _ .vmem, ⟨3, _⟩ => ⟨S6272x768, .bf16⟩
  | .local _ .vmem, ⟨4, _⟩ => ⟨S8x6272, .i32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | _, _ => ⟨S32x196x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_v5 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_c : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_c_0 : Ref sig .tc := ⟨.hbm, 41, rfl⟩
abbrev main_call2_v12 : Ref sig .tc := ⟨.hbm, 42, rfl⟩
abbrev main_call2_v13 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18_0 : Ref sig .tc := ⟨.hbm, 47, rfl⟩
abbrev main_v18_1 : Ref sig .tc := ⟨.hbm, 48, rfl⟩
abbrev main_v19 : Ref sig .tc := ⟨.hbm, 49, rfl⟩
abbrev main_v20 : Ref sig .tc := ⟨.hbm, 50, rfl⟩
abbrev main_cst_1 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_2 : Ref sig .tc := ⟨.hbm, 55, rfl⟩
abbrev main_v24 : Ref sig .tc := ⟨.hbm, 56, rfl⟩
abbrev main_cst_3 : Ref sig .tc := ⟨.hbm, 57, rfl⟩
abbrev main_v25 : Ref sig .tc := ⟨.hbm, 58, rfl⟩
abbrev main_cst_4 : Ref sig .tc := ⟨.hbm, 59, rfl⟩
abbrev main_v26 : Ref sig .tc := ⟨.hbm, 60, rfl⟩
abbrev main_v27 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x196x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6272x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6272x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x6272 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S32x196x768_S32x196_d2 : S32x196x768.ReducesTo [2] S32x196
  h_S_ : 0 < S_.numel
  bcast_S32x196_S32x196x1_0_1 : S32x196.BroadcastsInDim S32x196x1 (![0, 1] : Fin 2 → Fin S32x196x1.rank)
  bcast_S_S32x196x1 : S_.BroadcastsInDim S32x196x1 (![] : Fin 0 → Fin S32x196x1.rank)
  bcast_S32x196x1_S32x196x768_0_1_2 : S32x196x1.BroadcastsInDim S32x196x768 (![0, 1, 2] : Fin 3 → Fin S32x196x768.rank)
  bitsLt_bf16_f32 : FTy.bits .bf16 < FTy.bits .f32
  shapeCasts_S32x196x768_S6272x768 : S32x196x768.ShapeCasts S6272x768
  bcast_S_S6272 : S_.BroadcastsInDim S6272 (![] : Fin 0 → Fin S6272.rank)
  bcast_S6272_S1x6272_1 : S6272.BroadcastsInDim S1x6272 (![1] : Fin 1 → Fin S1x6272.rank)
  bcast_S1x6272_S8x6272_0_1 : S1x6272.BroadcastsInDim S8x6272 (![0, 1] : Fin 2 → Fin S8x6272.rank)
  inb_S1x196x768_S1x196x768_0_0_0 : ∀ a, (![0, 0, 0] : Fin 3 → Nat) a + S1x196x768.size a ≤ S1x196x768.size a
  h_S1x196x768 : 0 < S1x196x768.numel
  shapeCasts_S1x196x768_S196x768 : S1x196x768.ShapeCasts S196x768
  inb_S6272x768_S6272x768_0_0 : ∀ a, (![0, 0] : Fin 2 → Nat) a + S6272x768.size a ≤ S6272x768.size a
  h_S6272x768 : 0 < S6272x768.numel
  shapeCasts_S6272x768_S6272x768 : S6272x768.ShapeCasts S6272x768
  reduces_S196x6272_S6272 : S196x6272.Reduces [0] S6272
  shapeCasts_S6272_S1x6272 : S6272.ShapeCasts S1x6272
  inb_S8x6272_S1x6272_0_0 : ∀ a, (![0, 0] : Fin 2 → Nat) a + S1x6272.size a ≤ S8x6272.size a
  h_S1x6272 : 0 < S1x6272.numel
  shapeCasts_S1x6272_S1x6272 : S1x6272.ShapeCasts S1x6272
  natLt_1_32 : 1 < 32
  shapeCasts_S1x6272_S1x1x6272 : S1x6272.ShapeCasts S1x1x6272
  reduces_S1x1x6272_S1 : S1x1x6272.Reduces [1, 2] S1
  shapeCasts_S1_S1x1x1 : S1.ShapeCasts S1x1x1
  inpos_S1x1x1_p0_0_0 : ∀ a, (![0, 0, 0] : Fin 3 → Nat) a < S1x1x1.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S32x8x128_S32x1x1_0_0_0 : S32x8x128.Slices ![0, 0, 0] S32x1x1
  shapeCasts_S32x1x1_S32 : S32x1x1.ShapeCasts S32
  reducesTo_S32_S_d0 : S32.ReducesTo [0] S_
  dot_S196x768_S6272x768_S196x6272_1_1_0_0_n_n_wf : DotDims.WF S196x768 S6272x768 S196x6272 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x196x768.size a ≤ S32x196x768.size a
  hwx0_0 : ∀ i : grid0.Coords, EltTy.bits .bf16 = 32 ∨ (Rect.block (s := S32x196x768) S1x196x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6272x768.size a ≤ S6272x768.size a
  hwx0_1 : ∀ i : grid0.Coords, EltTy.bits .bf16 = 32 ∨ (Rect.block (s := S6272x768) S6272x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6272x768.size a ≤ S6272x768.size a
  hwx0_2 : ∀ i : grid0.Coords, EltTy.bits .bf16 = 32 ∨ (Rect.block (s := S6272x768) S6272x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x6272.size a ≤ S8x6272.size a
  hwx0_3 : ∀ i : grid0.Coords, EltTy.bits .i32 = 32 ∨ (Rect.block (s := S8x6272) S8x6272.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S32x8x128.size a
  hwx0_4 : ∀ i : grid0.Coords, EltTy.bits .f32 = 32 ∨ (Rect.block (s := S32x8x128) S1x8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S32x8x128.size a
  hwx0_5 : ∀ i : grid0.Coords, EltTy.bits .f32 = 32 ∨ (Rect.block (s := S32x8x128) S1x8x128.size (cc0_transform_5 i) (hinb0_5 i)).WholeWords (EltTy.packing .f32)

variable [Facts₀]

def dot_S196x768_S6272x768_S196x6272_1_1_0_0_n_n : DotDims S196x768 S6272x768 S196x6272 where
  lhsContracting := [1]
  rhsContracting := [1]
  lhsNonContracting := [0]
  rhsNonContracting := [0]
  lhsBatch := []
  rhsBatch := []
  wf := dot_S196x768_S6272x768_S196x6272_1_1_0_0_n_n_wf

abbrev win0_0 : Pipeline.Window sig grid0 :=
  Pipeline.Window.ofSpec (Memref.whole main_v5) S1x196x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S6272x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S6272x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S8x6272.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18_0) S1x8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18_1) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x196x768 : Shape := ⟨3, ![32, 196, 768]⟩
abbrev S_ : Shape := ⟨0, ![]⟩
abbrev S32x196 : Shape := ⟨2, ![32, 196]⟩
abbrev S32x196x1 : Shape := ⟨3, ![32, 196, 1]⟩
abbrev S32x196x32x196 : Shape := ⟨4, ![32, 196, 32, 196]⟩
abbrev S32x32x196x196 : Shape := ⟨4, ![32, 32, 196, 196]⟩
abbrev S32x32x196 : Shape := ⟨3, ![32, 32, 196]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S32x32x1 : Shape := ⟨3, ![32, 32, 1]⟩

abbrev nBuf : Space → Nat
  | .hbm => 58
  | .vmem => 0
  | .smem => 0
  | _ => 0

abbrev bufTy : (tb : Table) → Fin (tcTables nBuf tb) → BufTy
  | .hbm, ⟨0, _⟩ => ⟨S32x196x768, .f32⟩
  | .hbm, ⟨1, _⟩ => ⟨S32x196x768, .f32⟩
  | .hbm, ⟨2, _⟩ => ⟨S32x196x768, .f32⟩
  | .hbm, ⟨3, _⟩ => ⟨S_, .f32⟩
  | .hbm, ⟨4, _⟩ => ⟨S32x196, .f32⟩
  | .hbm, ⟨5, _⟩ => ⟨S32x196x1, .f32⟩
  | .hbm, ⟨6, _⟩ => ⟨S32x196x1, .f32⟩
  | .hbm, ⟨7, _⟩ => ⟨S_, .f32⟩
  | .hbm, ⟨8, _⟩ => ⟨S32x196x1, .f32⟩
  | .hbm, ⟨9, _⟩ => ⟨S32x196x1, .f32⟩
  | .hbm, ⟨10, _⟩ => ⟨S32x196x768, .f32⟩
  | .hbm, ⟨11, _⟩ => ⟨S32x196x768, .f32⟩
  | .hbm, ⟨12, _⟩ => ⟨S32x196x768, .f32⟩
  | .hbm, ⟨13, _⟩ => ⟨S_, .f32⟩
  | .hbm, ⟨14, _⟩ => ⟨S32x196, .f32⟩
  | .hbm, ⟨15, _⟩ => ⟨S32x196x1, .f32⟩
  | .hbm, ⟨16, _⟩ => ⟨S32x196x1, .f32⟩
  | .hbm, ⟨17, _⟩ => ⟨S_, .f32⟩
  | .hbm, ⟨18, _⟩ => ⟨S32x196x1, .f32⟩
  | .hbm, ⟨19, _⟩ => ⟨S32x196x1, .f32⟩
  | .hbm, ⟨20, _⟩ => ⟨S32x196x768, .f32⟩
  | .hbm, ⟨21, _⟩ => ⟨S32x196x768, .f32⟩
  | .hbm, ⟨22, _⟩ => ⟨S32x196x32x196, .f32⟩
  | .hbm, ⟨23, _⟩ => ⟨S32x32x196x196, .f32⟩
  | .hbm, ⟨24, _⟩ => ⟨S_, .f32⟩
  | .hbm, ⟨25, _⟩ => ⟨S32x32x196, .f32⟩
  | .hbm, ⟨26, _⟩ => ⟨S32x196x32x196, .f32⟩
  | .hbm, ⟨27, _⟩ => ⟨S32x32x196x196, .f32⟩
  | .hbm, ⟨28, _⟩ => ⟨S_, .f32⟩
  | .hbm, ⟨29, _⟩ => ⟨S32x32x196, .f32⟩
  | .hbm, ⟨30, _⟩ => ⟨S32, .i32⟩
  | .hbm, ⟨31, _⟩ => ⟨S32x1, .i32⟩
  | .hbm, ⟨32, _⟩ => ⟨S1x32, .i32⟩
  | .hbm, ⟨33, _⟩ => ⟨S32x32, .i32⟩
  | .hbm, ⟨34, _⟩ => ⟨S32x32, .i32⟩
  | .hbm, ⟨35, _⟩ => ⟨S32x32, .i1⟩
  | .hbm, ⟨36, _⟩ => ⟨S32x32, .f32⟩
  | .hbm, ⟨37, _⟩ => ⟨S_, .f32⟩
  | .hbm, ⟨38, _⟩ => ⟨S32x32x196, .f32⟩
  | .hbm, ⟨39, _⟩ => ⟨S32x32x196, .f32⟩
  | .hbm, ⟨40, _⟩ => ⟨S32x32x1, .f32⟩
  | .hbm, ⟨41, _⟩ => ⟨S32x32x196, .f32⟩
  | .hbm, ⟨42, _⟩ => ⟨S32x32x196, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S32x32x196, .f32⟩
  | .hbm, ⟨49, _⟩ => ⟨S32x32x196, .f32⟩
  | .hbm, ⟨50, _⟩ => ⟨S_, .f32⟩
  | .hbm, ⟨51, _⟩ => ⟨S32x32x196, .f32⟩
  | .hbm, ⟨52, _⟩ => ⟨S32x32x196, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S32x196x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_call2_cst : Ref sig .tc := ⟨.hbm, 50, rfl⟩
abbrev main_call2_v0 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]

class Facts₀ : Prop where
  reducesTo_S32x196x768_S32x196_d2 : S32x196x768.ReducesTo [2] S32x196
  h_S_ : 0 < S_.numel
  bcast_S32x196_S32x196x1_0_1 : S32x196.BroadcastsInDim S32x196x1 (![0, 1] : Fin 2 → Fin S32x196x1.rank)
  bcast_S_S32x196x1 : S_.BroadcastsInDim S32x196x1 (![] : Fin 0 → Fin S32x196x1.rank)
  bcast_S32x196x1_S32x196x768_0_1_2 : S32x196x1.BroadcastsInDim S32x196x768 (![0, 1, 2] : Fin 3 → Fin S32x196x768.rank)
  transposes_S32x196x32x196_S32x32x196x196_2_0_3_1 : S32x196x32x196.Transposes [2, 0, 3, 1] S32x32x196x196
  reducesTo_S32x32x196x196_S32x32x196_d2 : S32x32x196x196.ReducesTo [2] S32x32x196
  bcast_S32_S32x1_0 : S32.BroadcastsInDim S32x1 (![0] : Fin 1 → Fin S32x1.rank)
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  bcast_S_S32x32x196 : S_.BroadcastsInDim S32x32x196 (![] : Fin 0 → Fin S32x32x196.rank)
  bcast_S32x32_S32x32x1_0_1 : S32x32.BroadcastsInDim S32x32x1 (![0, 1] : Fin 2 → Fin S32x32x1.rank)
  bcast_S32x32x1_S32x32x196_0_1_2 : S32x32x1.BroadcastsInDim S32x32x196 (![0, 1, 2] : Fin 3 → Fin S32x32x196.rank)
  reducesTo_S32x32x196_S_d0_1_2 : S32x32x196.ReducesTo [0, 1, 2] S_
  dot_S32x196x768_S32x196x768_S32x196x32x196_2_2_01_01_n_n_wf : DotDims.WF S32x196x768 S32x196x768 S32x196x32x196 [2] [2] [0, 1] [0, 1] [] []

variable [Facts₀]

def dot_S32x196x768_S32x196x768_S32x196x32x196_2_2_01_01_n_n : DotDims S32x196x768 S32x196x768 S32x196x32x196 where
  lhsContracting := [2]
  rhsContracting := [2]
  lhsNonContracting := [0, 1]
  rhsNonContracting := [0, 1]
  lhsBatch := []
  rhsBatch := []
  wf := dot_S32x196x768_S32x196x768_S32x196x32x196_2_2_01_01_n_n_wf

class Facts : Prop extends Facts₀ where

variable [Facts]
-- ==== Proof.Spec.lean ====
/-
  The contrastive patch loss as one function of the two normalised embedding arrays, on the extended reals.

  For arrays A, B of shape [32, 196, 768] (32 images, 196 patches each, 768 features):
    dot A B i p j q  =  Σ_k A[i,p,k] · B[j,q,k]                      the inner product of patch p of image i with patch q of image j
    sim A B i j q    =  max_p dot A B i p j q                         patch q of image j against its best match in image i
                                                                        (a running maximum from -∞ over the 196 patches p)
    posTerm A i j q  =  [i < j] · (1 − sim A A i j q)
    negTerm A B i j q = max (sim A B i j q − 1/2) 0
    loss A B         =  (Σ_{i,j,q} posTerm A i j q) / 97216 + (Σ_{i,j,q} negTerm A B i j q) / 200704
  The float constants stay the words the programs print; only the zero word is evaluated.

  Two re-indexings of sums, used to bring either program's sums to this form: a sum over the 6272 = 32·196 columns
  c of a function of (c / 196, c % 196) is the double sum over (j, q); a sum over a rank-3 index set is the triple sum
  over its coordinates.
-/
import Idealize.ShloMosaic.PureOps.Ideal
import Idealize.ShloMosaic.PureOps.Ideal.Laws
import Idealize.ShloMosaic.Lib.ValueIdx

noncomputable section

namespace Cert.Contrast

open Idealize.ShloMosaic Idealize.ShloMosaic.ValueIdx

/-- A normalised embedding array: 32 images × 196 patches × 768 features of extended reals. -/
abbrev Arr := (⟨3, ![32, 196, 768]⟩ : Shape).Idx → EReal

def negInf : EReal := Ideal.ofBits .f32 0xFF800000#32
def one : EReal := Ideal.ofBits .f32 0x3F800000#32
def half : EReal := Ideal.ofBits .f32 0x3F000000#32
def nPos : EReal := Ideal.ofBits .f32 0x47BDE000#32
def nNeg : EReal := Ideal.ofBits .f32 0x48440000#32

/-- The inner product of patch `p` of image `i` of `A` with patch `q` of image `j` of `B`. -/
def dot (A B : Arr) (i : Fin 32) (p : Fin 196) (j : Fin 32) (q : Fin 196) : EReal :=
  ∑ k : Fin 768, A (ix3 i p k) * B (ix3 j q k)

/-- Patch `q` of image `j` of `B` against its best match among the patches of image `i` of `A`. -/
def sim (A B : Arr) (i j : Fin 32) (q : Fin 196) : EReal :=
  (Finset.univ : Finset (Fin 196)).fold max negInf (fun p => dot A B i p j q)

/-- The strict upper triangle of image pairs. -/
def mask (i j : Fin 32) : EReal := if i.val < j.val then 1 else 0

def posTerm (A : Arr) (i j : Fin 32) (q : Fin 196) : EReal := mask i j * (one - sim A A i j q)

def negTerm (A B : Arr) (i j : Fin 32) (q : Fin 196) : EReal := max (sim A B i j q - half) 0

/-- What one image `i` contributes to each sum. -/
def posRow (A : Arr) (i : Fin 32) : EReal := ∑ j : Fin 32, ∑ q : Fin 196, posTerm A i j q
def negRow (A B : Arr) (i : Fin 32) : EReal := ∑ j : Fin 32, ∑ q : Fin 196, negTerm A B i j q

def posSum (A : Arr) : EReal := ∑ i : Fin 32, posRow A i
def negSum (A B : Arr) : EReal := ∑ i : Fin 32, negRow A B i

/-- The loss. -/
def loss (A B : Arr) : EReal := Ideal.div (posSum A) nPos + Ideal.div (negSum A B) nNeg

/-! ## Re-indexing sums -/

/-- Column `c` of the 6272 columns is patch `c % 196` of image `c / 196`. -/
def colImg (c : Fin 6272) : Fin 32 := ⟨c.val / 196, by have := c.isLt; omega⟩
def colPatch (c : Fin 6272) : Fin 196 := ⟨c.val % 196, Nat.mod_lt _ (by decide)⟩

theorem col_val (c : Fin 6272) : c.val = (colImg c).val * 196 + (colPatch c).val := by
  show c.val = c.val / 196 * 196 + c.val % 196
  omega

/-- A sum over the columns of a function of (image, patch) is the double sum. -/
theorem sum_cols {M : Type*} [AddCommMonoid M] (f : Fin 32 → Fin 196 → M) :
    ∑ c : Fin 6272, f (colImg c) (colPatch c) = ∑ j : Fin 32, ∑ q : Fin 196, f j q := by
  rw [← Fintype.sum_prod_type' f]
  refine (Equiv.sum_comp (finProdFinEquiv (m := 32) (n := 196)) (fun c : Fin 6272 => f (colImg c) (colPatch c))).symm.trans ?_
  refine Finset.sum_congr rfl fun x _ => ?_
  obtain ⟨j, q⟩ := x
  have hj : colImg (finProdFinEquiv (j, q)) = j := Fin.ext (by
    show (q.val + 196 * j.val) / 196 = j.val
    have := q.isLt; omega)
  have hq : colPatch (finProdFinEquiv (j, q)) = q := Fin.ext (by
    show (q.val + 196 * j.val) % 196 = q.val
    have := q.isLt; omega)
  rw [hj, hq]

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.Contrast

end
-- ==== Proof.LibPoolHost.lean ====
/-
  Host array operations of rank 4 and 5 read at coordinates, over variable extents: a slice along the second or third
  axis, the reshape that splits such an axis in two, the reduction by `max` over one axis as a running maximum over
  that axis's coordinates, the broadcast that re-inserts a unit axis, the two-piece concatenation along the second or
  third axis, and the reshape that flattens the three trailing axes.
-/
import Idealize.ShloMosaic.Lib.Pipeline.Value
import Idealize.ShloMosaic.Lib.ValueIdx
import Idealize.ShloMosaic.PureOps.Ideal.Laws

namespace Cert.LibPoolHost

open Idealize.ShloMosaic Idealize.ShloMosaic.ValueIdx

variable {α : Type}

/-! ## Slices -/

/-- A rank-4 array cut along its second axis from `o` reads, at `(b, i, w, c)`, the source at `(b, o + i, w, c)`. -/
theorem slice4_axis1 {B H W C m : ℕ} (o : ℕ) (x : (⟨4, ![B, H, W, C]⟩ : Shape).Idx → α)
    (h : (⟨4, ![B, H, W, C]⟩ : Shape).Slices ![0, o, 0, 0] ⟨4, ![B, m, W, C]⟩) (b : Fin B) (i : Fin m) (w : Fin W) (c : Fin C)
    (hi : o + i.val < H) :
    extractStridedSlice ⟨4, ![B, m, W, C]⟩ ![0, o, 0, 0] x h (ix4 b i w c) = x (ix4 b ⟨o + i.val, hi⟩ w c) :=
  extractStridedSlice_apply _ _ _ _ _ (fun ax => by
    match ax with
    | ⟨0, _⟩ => exact (Nat.zero_add _).symm
    | ⟨1, _⟩ => rfl
    | ⟨2, _⟩ => exact (Nat.zero_add _).symm
    | ⟨3, _⟩ => exact (Nat.zero_add _).symm)

/-- A rank-4 array cut along its third axis from `o` reads, at `(b, p, i, c)`, the source at `(b, p, o + i, c)`. -/
theorem slice4_axis2 {B P W C m : ℕ} (o : ℕ) (x : (⟨4, ![B, P, W, C]⟩ : Shape).Idx → α)
    (h : (⟨4, ![B, P, W, C]⟩ : Shape).Slices ![0, 0, o, 0] ⟨4, ![B, P, m, C]⟩) (b : Fin B) (p : Fin P) (i : Fin m) (c : Fin C)
    (hi : o + i.val < W) :
    extractStridedSlice ⟨4, ![B, P, m, C]⟩ ![0, 0, o, 0] x h (ix4 b p i c) = x (ix4 b p ⟨o + i.val, hi⟩ c) :=
  extractStridedSlice_apply _ _ _ _ _ (fun ax => by
    match ax with
    | ⟨0, _⟩ => exact (Nat.zero_add _).symm
    | ⟨1, _⟩ => exact (Nat.zero_add _).symm
    | ⟨2, _⟩ => rfl
    | ⟨3, _⟩ => exact (Nat.zero_add _).symm)

/-! ## Reshapes -/

/-- The reshape that splits the second axis `H = n k` of a rank-4 array into `(n, k)`: entry `(b, i, l, w, c)` is the
    source's `(b, i k + l, w, c)`. -/
theorem cast4to5_split1 {B H W C n k : ℕ} (x : (⟨4, ![B, H, W, C]⟩ : Shape).Idx → α)
    (h : (⟨4, ![B, H, W, C]⟩ : Shape).ShapeCasts ⟨5, ![B, n, k, W, C]⟩) (hH : H = n * k)
    (b : Fin B) (i : Fin n) (l : Fin k) (w : Fin W) (c : Fin C) (hi : i.val * k + l.val < H) :
    shapeCast ⟨5, ![B, n, k, W, C]⟩ x h (ix5 b i l w c) = x (ix4 b ⟨i.val * k + l.val, hi⟩ w c) :=
  shapeCast_apply x h _ _ (by
    rw [Shape.rowMajor_val_four, Shape.rowMajor_val_five]
    show ((b.val * H + (i.val * k + l.val)) * W + w.val) * C + c.val
      = (((b.val * n + i.val) * k + l.val) * W + w.val) * C + c.val
    subst hH; ring)

/-- The reshape that splits the third axis `W = n k` of a rank-4 array into `(n, k)`: entry `(b, p, i, l, c)` is the
    source's `(b, p, i k + l, c)`. -/
theorem cast4to5_split2 {B P W C n k : ℕ} (x : (⟨4, ![B, P, W, C]⟩ : Shape).Idx → α)
    (h : (⟨4, ![B, P, W, C]⟩ : Shape).ShapeCasts ⟨5, ![B, P, n, k, C]⟩) (hW : W = n * k)
    (b : Fin B) (p : Fin P) (i : Fin n) (l : Fin k) (c : Fin C) (hi : i.val * k + l.val < W) :
    shapeCast ⟨5, ![B, P, n, k, C]⟩ x h (ix5 b p i l c) = x (ix4 b p ⟨i.val * k + l.val, hi⟩ c) :=
  shapeCast_apply x h _ _ (by
    rw [Shape.rowMajor_val_four, Shape.rowMajor_val_five]
    show ((b.val * P + p.val) * W + (i.val * k + l.val)) * C + c.val
      = (((b.val * P + p.val) * n + i.val) * k + l.val) * C + c.val
    subst hW; ring)

/-- The reshape that flattens the three trailing axes of a rank-4 array: entry `(b, (i Q + j) C + c)` of the result is the
    source's `(b, i, j, c)`. -/
theorem cast4to2_flat {B P Q C N : ℕ} (x : (⟨4, ![B, P, Q, C]⟩ : Shape).Idx → α)
    (h : (⟨4, ![B, P, Q, C]⟩ : Shape).ShapeCasts ⟨2, ![B, N]⟩) (hN : N = P * Q * C)
    (b : Fin B) (i : Fin P) (j : Fin Q) (c : Fin C) (hn : (i.val * Q + j.val) * C + c.val < N) :
    shapeCast ⟨2, ![B, N]⟩ x h (ix2 b ⟨(i.val * Q + j.val) * C + c.val, hn⟩) = x (ix4 b i j c) :=
  shapeCast_apply x h _ _ (by
    rw [Shape.rowMajor_val_four, Shape.rowMajor_val_two]
    show ((b.val * P + i.val) * Q + j.val) * C + c.val = b.val * N + ((i.val * Q + j.val) * C + c.val)
    subst hN; ring)

/-! ## Maxima over one axis -/

/-- The reduction by `max` over the third axis of a rank-5 array of extended reals, at `(b, i, w, c)`: the running maximum
    from the initial value over that axis. -/
theorem hostMax5_axis2 {B n k W C : ℕ} {u : Shape} (x : FVec Ideal ⟨5, ![B, n, k, W, C]⟩ .f32) (init : u.Idx → EReal)
    (h' : (⟨5, ![B, n, k, W, C]⟩ : Shape).ReducesTo [2] ⟨4, ![B, n, W, C]⟩)
    (h : (⟨5, ![B, n, k, W, C]⟩ : Shape).Reduces [2] ⟨4, ![B, n, W, C]⟩)
    (hu : 0 < u.numel) (b : Fin B) (i : Fin n) (w : Fin W) (c : Fin C) :
    Host.reduce FloatOps.maximumf x init h' hu (ix4 b i w c)
      = (Finset.univ : Finset (Fin k)).fold max (init (Shape.Idx.first hu)) (fun l => x (ix5 b i l w c)) := by
  rw [Host.reduce_eq_fold_single FloatOps.maximumf x init h' h hu]
  refine congrArg (Finset.fold max (init (Shape.Idx.first hu)) · Finset.univ) (funext fun l => ?_)
  exact congrArg x (funext fun ax => Fin.ext (by
    match ax with | ⟨0, _⟩ => rfl | ⟨1, _⟩ => rfl | ⟨2, _⟩ => rfl | ⟨3, _⟩ => rfl | ⟨4, _⟩ => rfl))

/-- The same over the fourth axis, at `(b, p, i, c)`. -/
theorem hostMax5_axis3 {B P n k C : ℕ} {u : Shape} (x : FVec Ideal ⟨5, ![B, P, n, k, C]⟩ .f32) (init : u.Idx → EReal)
    (h' : (⟨5, ![B, P, n, k, C]⟩ : Shape).ReducesTo [3] ⟨4, ![B, P, n, C]⟩)
    (h : (⟨5, ![B, P, n, k, C]⟩ : Shape).Reduces [3] ⟨4, ![B, P, n, C]⟩)
    (hu : 0 < u.numel) (b : Fin B) (p : Fin P) (i : Fin n) (c : Fin C) :
    Host.reduce FloatOps.maximumf x init h' hu (ix4 b p i c)
      = (Finset.univ : Finset (Fin k)).fold max (init (Shape.Idx.first hu)) (fun l => x (ix5 b p i l c)) := by
  rw [Host.reduce_eq_fold_single FloatOps.maximumf x init h' h hu]
  refine congrArg (Finset.fold max (init (Shape.Idx.first hu)) · Finset.univ) (funext fun l => ?_)
  exact congrArg x (funext fun ax => Fin.ext (by
    match ax with | ⟨0, _⟩ => rfl | ⟨1, _⟩ => rfl | ⟨2, _⟩ => rfl | ⟨3, _⟩ => rfl | ⟨4, _⟩ => rfl))

/-- The reduction by `max` over the second axis of a rank-4 array, at `(b, w, c)`. -/
theorem hostMax4_axis1 {B k W C : ℕ} {u : Shape} (x : FVec Ideal ⟨4, ![B, k, W, C]⟩ .f32) (init : u.Idx → EReal)
    (h' : (⟨4, ![B, k, W, C]⟩ : Shape).ReducesTo [1] ⟨3, ![B, W, C]⟩)
    (h : (⟨4, ![B, k, W, C]⟩ : Shape).Reduces [1] ⟨3, ![B, W, C]⟩)
    (hu : 0 < u.numel) (b : Fin B) (w : Fin W) (c : Fin C) :
    Host.reduce FloatOps.maximumf x init h' hu (ix3 b w c)
      = (Finset.univ : Finset (Fin k)).fold max (init (Shape.Idx.first hu)) (fun l => x (ix4 b l w c)) := by
  rw [Host.reduce_eq_fold_single FloatOps.maximumf x init h' h hu]
  refine congrArg (Finset.fold max (init (Shape.Idx.first hu)) · Finset.univ) (funext fun l => ?_)
  exact congrArg x (funext fun ax => Fin.ext (by
    match ax with | ⟨0, _⟩ => rfl | ⟨1, _⟩ => rfl | ⟨2, _⟩ => rfl | ⟨3, _⟩ => rfl))

/-- The reduction by `max` over the third axis of a rank-4 array, at `(b, p, c)`. -/
theorem hostMax4_axis2 {B P k C : ℕ} {u : Shape} (x : FVec Ideal ⟨4, ![B, P, k, C]⟩ .f32) (init : u.Idx → EReal)
    (h' : (⟨4, ![B, P, k, C]⟩ : Shape).ReducesTo [2] ⟨3, ![B, P, C]⟩)
    (h : (⟨4, ![B, P, k, C]⟩ : Shape).Reduces [2] ⟨3, ![B, P, C]⟩)
    (hu : 0 < u.numel) (b : Fin B) (p : Fin P) (c : Fin C) :
    Host.reduce FloatOps.maximumf x init h' hu (ix3 b p c)
      = (Finset.univ : Finset (Fin k)).fold max (init (Shape.Idx.first hu)) (fun l => x (ix4 b p l c)) := by
  rw [Host.reduce_eq_fold_single FloatOps.maximumf x init h' h hu]
  refine congrArg (Finset.fold max (init (Shape.Idx.first hu)) · Finset.univ) (funext fun l => ?_)
  exact congrArg x (funext fun ax => Fin.ext (by
    match ax with | ⟨0, _⟩ => rfl | ⟨1, _⟩ => rfl | ⟨2, _⟩ => rfl | ⟨3, _⟩ => rfl))

/-! ## Re-inserting a unit axis -/

/-- A rank-3 array broadcast to a unit second axis reads, at `(b, i, w, c)`, the source at `(b, w, c)`. -/
theorem bcast3to4_axis1 {B W C : ℕ} (x : (⟨3, ![B, W, C]⟩ : Shape).Idx → α)
    (h : (⟨3, ![B, W, C]⟩ : Shape).BroadcastsInDim ⟨4, ![B, 1, W, C]⟩ ![0, 2, 3]) (b : Fin B) (i : Fin 1) (w : Fin W) (c : Fin C) :
    broadcastInDim ⟨4, ![B, 1, W, C]⟩ ![0, 2, 3] h x (ix4 b i w c) = x (ix3 b w c) :=
  broadcastInDim_apply _ h x _ _ (fun a => by
    match a with
    | ⟨0, _⟩ => show b.val = if B = 1 then 0 else b.val; have := b.isLt; split <;> omega
    | ⟨1, _⟩ => show w.val = if W = 1 then 0 else w.val; have := w.isLt; split <;> omega
    | ⟨2, _⟩ => show c.val = if C = 1 then 0 else c.val; have := c.isLt; split <;> omega)

/-- A rank-3 array broadcast to a unit third axis reads, at `(b, p, i, c)`, the source at `(b, p, c)`. -/
theorem bcast3to4_axis2 {B P C : ℕ} (x : (⟨3, ![B, P, C]⟩ : Shape).Idx → α)
    (h : (⟨3, ![B, P, C]⟩ : Shape).BroadcastsInDim ⟨4, ![B, P, 1, C]⟩ ![0, 1, 3]) (b : Fin B) (p : Fin P) (i : Fin 1) (c : Fin C) :
    broadcastInDim ⟨4, ![B, P, 1, C]⟩ ![0, 1, 3] h x (ix4 b p i c) = x (ix3 b p c) :=
  broadcastInDim_apply _ h x _ _ (fun a => by
    match a with
    | ⟨0, _⟩ => show b.val = if B = 1 then 0 else b.val; have := b.isLt; split <;> omega
    | ⟨1, _⟩ => show p.val = if P = 1 then 0 else p.val; have := p.isLt; split <;> omega
    | ⟨2, _⟩ => show c.val = if C = 1 then 0 else c.val; have := c.isLt; split <;> omega)

/-! ## Two pieces laid end to end -/

/-- Two rank-4 arrays joined along the second axis: below the first's extent the joint array reads the first. -/
theorem concat4_axis1_left {B n₁ n₂ n W C : ℕ} (x₁ : (⟨4, ![B, n₁, W, C]⟩ : Shape).Idx → α) (x₂ : (⟨4, ![B, n₂, W, C]⟩ : Shape).Idx → α)
    (h : Shape.Concatenates [⟨4, ![B, n₁, W, C]⟩, ⟨4, ![B, n₂, W, C]⟩] ⟨4, ![B, n, W, C]⟩ 1)
    (b : Fin B) (i : Fin n) (w : Fin W) (c : Fin C) (hi : i.val < n₁) :
    concatenate ⟨4, ![B, n, W, C]⟩ 1 [⟨⟨4, ![B, n₁, W, C]⟩, x₁⟩, ⟨⟨4, ![B, n₂, W, C]⟩, x₂⟩] h (ix4 b i w c)
      = x₁ (ix4 b ⟨i.val, hi⟩ w c) :=
  concatenate_pair_apply_left 1 x₁ x₂ h _ rfl _ (fun ax => by
    match ax with | ⟨0, _⟩ => rfl | ⟨1, _⟩ => rfl | ⟨2, _⟩ => rfl | ⟨3, _⟩ => rfl)

/-- … and from the first's extent on it reads the second, that extent less. -/
theorem concat4_axis1_right {B n₁ n₂ n W C : ℕ} (x₁ : (⟨4, ![B, n₁, W, C]⟩ : Shape).Idx → α) (x₂ : (⟨4, ![B, n₂, W, C]⟩ : Shape).Idx → α)
    (h : Shape.Concatenates [⟨4, ![B, n₁, W, C]⟩, ⟨4, ![B, n₂, W, C]⟩] ⟨4, ![B, n, W, C]⟩ 1)
    (b : Fin B) (i : Fin n) (w : Fin W) (c : Fin C) (hi : n₁ ≤ i.val) (hi2 : i.val - n₁ < n₂) :
    concatenate ⟨4, ![B, n, W, C]⟩ 1 [⟨⟨4, ![B, n₁, W, C]⟩, x₁⟩, ⟨⟨4, ![B, n₂, W, C]⟩, x₂⟩] h (ix4 b i w c)
      = x₂ (ix4 b ⟨i.val - n₁, hi2⟩ w c) :=
  concatenate_pair_apply_right 1 x₁ x₂ h _ rfl rfl _ (fun ax hax => by
    match ax with
    | ⟨0, _⟩ => rfl
    | ⟨1, _⟩ => exact absurd rfl hax
    | ⟨2, _⟩ => rfl
    | ⟨3, _⟩ => rfl)
    (by show (i.val - n₁) + n₁ = i.val; omega)

/-- Two rank-4 arrays joined along the third axis: below the first's extent the joint array reads the first. -/
theorem concat4_axis2_left {B P n₁ n₂ n C : ℕ} (x₁ : (⟨4, ![B, P, n₁, C]⟩ : Shape).Idx → α) (x₂ : (⟨4, ![B, P, n₂, C]⟩ : Shape).Idx → α)
    (h : Shape.Concatenates [⟨4, ![B, P, n₁, C]⟩, ⟨4, ![B, P, n₂, C]⟩] ⟨4, ![B, P, n, C]⟩ 2)
    (b : Fin B) (p : Fin P) (i : Fin n) (c : Fin C) (hi : i.val < n₁) :
    concatenate ⟨4, ![B, P, n, C]⟩ 2 [⟨⟨4, ![B, P, n₁, C]⟩, x₁⟩, ⟨⟨4, ![B, P, n₂, C]⟩, x₂⟩] h (ix4 b p i c)
      = x₁ (ix4 b p ⟨i.val, hi⟩ c) :=
  concatenate_pair_apply_left 2 x₁ x₂ h _ rfl _ (fun ax => by
    match ax with | ⟨0, _⟩ => rfl | ⟨1, _⟩ => rfl | ⟨2, _⟩ => rfl | ⟨3, _⟩ => rfl)

/-- … and from the first's extent on it reads the second, that extent less. -/
theorem concat4_axis2_right {B P n₁ n₂ n C : ℕ} (x₁ : (⟨4, ![B, P, n₁, C]⟩ : Shape).Idx → α) (x₂ : (⟨4, ![B, P, n₂, C]⟩ : Shape).Idx → α)
    (h : Shape.Concatenates [⟨4, ![B, P, n₁, C]⟩, ⟨4, ![B, P, n₂, C]⟩] ⟨4, ![B, P, n, C]⟩ 2)
    (b : Fin B) (p : Fin P) (i : Fin n) (c : Fin C) (hi : n₁ ≤ i.val) (hi2 : i.val - n₁ < n₂) :
    concatenate ⟨4, ![B, P, n, C]⟩ 2 [⟨⟨4, ![B, P, n₁, C]⟩, x₁⟩, ⟨⟨4, ![B, P, n₂, C]⟩, x₂⟩] h (ix4 b p i c)
      = x₂ (ix4 b p ⟨i.val - n₁, hi2⟩ c) :=
  concatenate_pair_apply_right 2 x₁ x₂ h _ rfl rfl _ (fun ax hax => by
    match ax with
    | ⟨0, _⟩ => rfl
    | ⟨1, _⟩ => rfl
    | ⟨2, _⟩ => exact absurd rfl hax
    | ⟨3, _⟩ => rfl)
    (by show (i.val - n₁) + n₁ = i.val; omega)

end Cert.LibPoolHost
-- ==== Proof.RefValue.lean ====
/-
  The reference program's result is the contrastive patch loss of the two normalised embedding arrays.

  With A, B the two normalised arrays (taken as given), the program forms the array of all inner products
  Σ_k A[a,b,k]·A[c,d,k], transposes it so that the entry at (i, j, p, q) is Σ_k A[j,q,k]·A[i,p,k] — the inner product
  of patch p of image i with patch q of image j, its two factors in the other order, which commutativity of the
  product on the extended reals puts back —, and takes the maximum over p as a running maximum from -∞: that is
  sim A A i j q. The same with B as the left factor gives sim A B i j q.
  The mask is the comparison, as signed 32-bit words, of two iota vectors: for i, j < 32 the words are the numbers
  themselves, so the one-bit result, read as an unsigned number, is 1 when i < j and 0 otherwise.
  The positive branch multiplies (1 − sim A A) by the mask on the right, sums every entry from the zero word (a sum
  over a rank-3 index set is the triple sum over its coordinates) and divides by the word of 97216; the negative
  branch clamps (sim A B − 1/2) below at zero, sums every entry likewise and divides by the word of 200704; the
  result is the sum of the two quotients.
-/
import proofs.«126143_j24739011625310_2_alg».proof.Proof.Gen.ReferenceIdeal.Read
import proofs.«126143_j24739011625310_2_alg».proof.Proof.Spec
import proofs.«126143_j24739011625310_2_alg».proof.Proof.LibPoolHost
import Idealize.ShloMosaic.Lib.ValueIdx
import Idealize.ShloMosaic.Lib.Affine
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Contrast

/-- The two iota words compared as signed integers give the strict upper triangle. -/
theorem mask22 (i j : Fin 32) : val_main_v22 (F := Ideal) (ix2 i j) = mask i j := by
  rw [val_main_v22_apply, val_main_v21_apply, val_main_v19_apply, val_main_v20_apply, val_main_v17_apply,
    val_main_v18_apply, val_main_v16_apply, val_main_v16_apply]
  show (((IntOp.cmpi .slt (BitVec.ofNat 32 i.val) (BitVec.ofNat 32 j.val)).toNat : ℝ) : EReal) = mask i j
  have hi := i.isLt
  have hj := j.isLt
  have ti : (BitVec.ofNat 32 i.val).toInt = (i.val : Int) := by
    rw [BitVec.toInt_eq_toNat_cond, BitVec.toNat_ofNat, Nat.mod_eq_of_lt (by omega), if_pos (by omega)]
  have tj : (BitVec.ofNat 32 j.val).toInt = (j.val : Int) := by
    rw [BitVec.toInt_eq_toNat_cond, BitVec.toNat_ofNat, Nat.mod_eq_of_lt (by omega), if_pos (by omega)]
  unfold mask
  by_cases h : i.val < j.val
  · have hc : IntOp.cmpi .slt (BitVec.ofNat 32 i.val) (BitVec.ofNat 32 j.val) = 1#1 :=
      IntOp.cmpi_slt.2 (by rw [ti, tj]; exact_mod_cast h)
    rw [if_pos h, hc]
    show (((1 : ℕ) : ℝ) : EReal) = 1
    rw [Nat.cast_one, EReal.coe_one]
  · have hc : IntOp.cmpi .slt (BitVec.ofNat 32 i.val) (BitVec.ofNat 32 j.val) = 0#1 :=
      eq_zero_of_ne_one (fun hc => h (by
        have := IntOp.cmpi_slt.1 hc
        rw [ti, tj] at this
        exact_mod_cast this))
    rw [if_neg h, hc]
    show (((0 : ℕ) : ℝ) : EReal) = 0
    rw [Nat.cast_zero, EReal.coe_zero]

/-- The transposed product array at (i, j, p, q) is the inner product of patch p of image i with patch q of image j
    (the program multiplies the two factors in the other order). -/
theorem dot11 (x0 : (⟨S32x196x768, .f32⟩ : BufTy).Contents (Elt Ideal)) (i j : Fin 32) (p q : Fin 196) :
    val_main_v11 (F := Ideal) x0 (ix4 i j p q)
      = dot (val_main_v4 (F := Ideal) x0) (val_main_v4 (F := Ideal) x0) i p j q := by
  rw [val_main_v11_apply, val_main_v10_apply]
  unfold dot
  refine Finset.sum_congr rfl fun k _ => ?_
  have el : lidx_main_v10 (idx_main_v11 (ix4 i j p q)) k = ix3 j q k := funext fun a => Fin.ext (by
    match a with | ⟨0, _⟩ => rfl | ⟨1, _⟩ => rfl | ⟨2, _⟩ => rfl)
  have er : ridx_main_v10 (idx_main_v11 (ix4 i j p q)) k = ix3 i p k := funext fun a => Fin.ext (by
    match a with | ⟨0, _⟩ => rfl | ⟨1, _⟩ => rfl | ⟨2, _⟩ => rfl)
  rw [el, er]
  exact mul_comm _ _

theorem dot14 (x0 x1 : (⟨S32x196x768, .f32⟩ : BufTy).Contents (Elt Ideal)) (i j : Fin 32) (p q : Fin 196) :
    val_main_v14 (F := Ideal) x0 x1 (ix4 i j p q)
      = dot (val_main_v4 (F := Ideal) x0) (val_main_v9 (F := Ideal) x1) i p j q := by
  rw [val_main_v14_apply, val_main_v13_apply]
  unfold dot
  refine Finset.sum_congr rfl fun k _ => ?_
  have el : lidx_main_v13 (idx_main_v14 (ix4 i j p q)) k = ix3 j q k := funext fun a => Fin.ext (by
    match a with | ⟨0, _⟩ => rfl | ⟨1, _⟩ => rfl | ⟨2, _⟩ => rfl)
  have er : ridx_main_v13 (idx_main_v14 (ix4 i j p q)) k = ix3 i p k := funext fun a => Fin.ext (by
    match a with | ⟨0, _⟩ => rfl | ⟨1, _⟩ => rfl | ⟨2, _⟩ => rfl)
  rw [el, er]
  exact mul_comm _ _

theorem sim12 (x0 : (⟨S32x196x768, .f32⟩ : BufTy).Contents (Elt Ideal)) (i j : Fin 32) (q : Fin 196) :
    val_main_v12 (F := Ideal) x0 (ix3 i j q)
      = sim (val_main_v4 (F := Ideal) x0) (val_main_v4 (F := Ideal) x0) i j q := by
  unfold val_main_v12
  rw [Cert.LibPoolHost.hostMax4_axis2 (val_main_v11 (F := Ideal) x0) (val_main_cst_1 (F := Ideal))
    reducesTo_S32x32x196x196_S32x32x196_d2 (by decide) h_S_ i j q]
  have hinit : val_main_cst_1 (F := Ideal) (Shape.Idx.first h_S_) = negInf := rfl
  rw [hinit]
  unfold sim
  exact congrArg (Finset.fold max negInf · Finset.univ) (funext fun p => dot11 x0 i j p q)

theorem sim15 (x0 x1 : (⟨S32x196x768, .f32⟩ : BufTy).Contents (Elt Ideal)) (i j : Fin 32) (q : Fin 196) :
    val_main_v15 (F := Ideal) x0 x1 (ix3 i j q)
      = sim (val_main_v4 (F := Ideal) x0) (val_main_v9 (F := Ideal) x1) i j q := by
  unfold val_main_v15
  rw [Cert.LibPoolHost.hostMax4_axis2 (val_main_v14 (F := Ideal) x0 x1) (val_main_cst_2 (F := Ideal))
    reducesTo_S32x32x196x196_S32x32x196_d2 (by decide) h_S_ i j q]
  have hinit : val_main_cst_2 (F := Ideal) (Shape.Idx.first h_S_) = negInf := rfl
  rw [hinit]
  unfold sim
  exact congrArg (Finset.fold max negInf · Finset.univ) (funext fun p => dot14 x0 x1 i j p q)

/-- The sum of every entry of the masked array, from the zero word, is the positive sum. -/
theorem pos28 (x0 : (⟨S32x196x768, .f32⟩ : BufTy).Contents (Elt Ideal)) (i : S_.Idx) :
    val_main_v28 (F := Ideal) x0 i = posSum (val_main_v4 (F := Ideal) x0) := by
  rw [val_main_v28_apply]
  have h0 : val_main_cst_4 (F := Ideal) (Shape.Idx.first h_S_) = 0 := Ideal.ofBits_zero_f32
  rw [h0, zero_add, sum_idx3]
  unfold posSum posRow
  refine Finset.sum_congr rfl fun a _ => Finset.sum_congr rfl fun b _ => Finset.sum_congr rfl fun c _ => ?_
  rw [val_main_v27_apply, val_main_v24_apply, val_main_v23_apply, val_main_v26_apply, val_main_v25_apply]
  have e : idx_main_v25 (idx_main_v26 (ix3 a b c)) = ix2 a b := funext fun d => Fin.ext (by
    match d with | ⟨0, _⟩ => rfl | ⟨1, _⟩ => rfl)
  rw [e, mask22, sim12]
  unfold posTerm
  exact mul_comm _ _

/-- The sum of every entry of the clamped array, from the zero word, is the negative sum. -/
theorem neg33 (x0 x1 : (⟨S32x196x768, .f32⟩ : BufTy).Contents (Elt Ideal)) (i : S_.Idx) :
    val_main_v33 (F := Ideal) x0 x1 i = negSum (val_main_v4 (F := Ideal) x0) (val_main_v9 (F := Ideal) x1) := by
  rw [val_main_v33_apply]
  have h0 : val_main_cst_7 (F := Ideal) (Shape.Idx.first h_S_) = 0 := Ideal.ofBits_zero_f32
  rw [h0, zero_add, sum_idx3]
  unfold negSum negRow
  refine Finset.sum_congr rfl fun a _ => Finset.sum_congr rfl fun b _ => Finset.sum_congr rfl fun c _ => ?_
  rw [val_main_v32_apply, val_main_v31_apply, val_main_v30_apply, val_main_call2_v0_apply, sim15]
  have hz : val_main_call2_cst (F := Ideal) (idx_main_call2_v0 (ix3 a b c)) = 0 := Ideal.ofBits_zero_f32
  rw [hz]
  rfl

/-- The reference program's result is the loss of the two normalised arrays. -/
theorem result_eq (x0 x1 : (⟨S32x196x768, .f32⟩ : BufTy).Contents (Elt Ideal)) :
    Read.val_main_v35 (F := Ideal) x0 x1 = fun _ => Cert.Contrast.loss (Read.val_main_v4 (F := Ideal) x0) (Read.val_main_v9 (F := Ideal) x1) := by
  funext i
  rw [val_main_v35_apply, val_main_v29_apply, val_main_v34_apply, pos28, neg33]
  rfl

end Cert.ReferenceIdeal.RefValue

end
-- ==== Proof.KernelHost.lean ====
/-
  What the kernel's launch finds in its input arrays, as functions of the program's two arguments.

  Before the launch the program divides every 768-feature row of each argument by its Euclidean norm plus a small
  constant: `nrm x`.  (The change of float format that follows is the identity on the extended reals.)  The first
  window's array is `nrm` of the first argument; the second and third windows' arrays are `nrm` of the first and of the
  second argument with the image and patch axes regrouped into one axis of 6272 = 32 · 196 rows; the fourth window's
  array is the table that sends a column to its image.
-/
import proofs.«126143_j24739011625310_2_alg».proof.Proof.FrameKernelIdeal
import proofs.«126143_j24739011625310_2_alg».proof.Proof.Spec
import Idealize.ShloMosaic.Lib.StableHlo.Run
import Idealize.ShloMosaic.PureOps.Ideal
import Idealize.ShloMosaic.PureOps.Ideal.Laws

set_option maxRecDepth 16384

noncomputable section

namespace Cert.KernelIdeal.HostValue

open Cert.KernelIdeal Cert.KernelIdeal.Gen Cert.KernelIdeal.GenP Idealize.ShloMosaic Idealize.ShloMosaic.TcCoe Idealize.SL.Sem
open Idealize.ShloMosaic.StableHlo

variable (m : (ℓ : Loc nD τ sig) → Buf (Elt Ideal) ℓ)

/-- Every row of 768 features divided by its Euclidean norm plus the program's small constant. -/
def nrm (x : (⟨S32x196x768, .f32⟩ : BufTy).Contents (Elt Ideal)) : (⟨S32x196x768, .f32⟩ : BufTy).Contents (Elt Ideal) :=
  Host.divf (F := Ideal) x
    (broadcastInDim S32x196x768 ![0, 1, 2] bcast_S32x196x1_S32x196x768_0_1_2
      (addf (F := Ideal)
        (Host.sqrt (F := Ideal) (broadcastInDim S32x196x1 ![0, 1] bcast_S32x196_S32x196x1_0_1
          (Host.reduceAdd (F := Ideal) (mulf (F := Ideal) x x) (constant (F := Ideal) S_ .f32 0x00000000#32) reducesTo_S32x196x768_S32x196_d2 h_S_)))
        (broadcastInDim S32x196x1 ![] bcast_S_S32x196x1 (constant (F := Ideal) S_ .f32 0x322BCC77#32))))

/-- The images as the first window finds them: the first argument, rows normalised. -/
theorem V_v5 (c : Dev nD) :
    (V m c main_v5 : (⟨S32x196x768, .bf16⟩ : BufTy).Contents (Elt Ideal)) = nrm (m (c, Proc.tc.devRef main_arg0)) := by
  dsimp only [GenP.V, GenP.V0]
  simp only [hostOps0, hostOps0_1, hostOps0_2, hostOps0_3, hostOps0_4, hostOps0_5, List.flatten_cons, List.flatten_nil, List.append_nil, List.cons_append, List.nil_append]
  after_results_simp <;> rfl

/-- The table of all patches of the first argument, one row per (image, patch). -/
theorem V_v12 (c : Dev nD) :
    (V m c main_v12 : (⟨S6272x768, .bf16⟩ : BufTy).Contents (Elt Ideal))
      = shapeCast S6272x768 (nrm (m (c, Proc.tc.devRef main_arg0))) shapeCasts_S32x196x768_S6272x768 := by
  dsimp only [GenP.V, GenP.V0]
  simp only [hostOps0, hostOps0_1, hostOps0_2, hostOps0_3, hostOps0_4, hostOps0_5, List.flatten_cons, List.flatten_nil, List.append_nil, List.cons_append, List.nil_append]
  after_results_simp <;> rfl

/-- The table of all patches of the second argument. -/
theorem V_v13 (c : Dev nD) :
    (V m c main_v13 : (⟨S6272x768, .bf16⟩ : BufTy).Contents (Elt Ideal))
      = shapeCast S6272x768 (nrm (m (c, Proc.tc.devRef main_arg1))) shapeCasts_S32x196x768_S6272x768 := by
  dsimp only [GenP.V, GenP.V0]
  simp only [hostOps0, hostOps0_1, hostOps0_2, hostOps0_3, hostOps0_4, hostOps0_5, List.flatten_cons, List.flatten_nil, List.append_nil, List.cons_append, List.nil_append]
  after_results_simp <;> rfl

end Cert.KernelIdeal.HostValue

end
-- ==== Proof.LibJnpRem.lean ====
/-
  The remainder with the sign of the divisor, as an array library spells it over machine words, on a
  nonnegative dividend and a positive divisor.

  The spelling is: take the truncating signed remainder `r` of `x` by `d`; if `r` and `d` have different signs and
  `r` is not zero, add `d` to `r`, otherwise keep `r`. For `x = p` with `0 ≤ p < 2^31` and `d = k` with
  `0 < k < 2^31` the truncating remainder is already `p % k`, it is nonnegative like `k`, so the correction never
  fires and the result is the word of `p % k`.
-/
import Idealize.ShloMosaic.Lib.Affine
import Idealize.ShloMosaic.Lib.IdealHost

namespace Cert.Lib.JnpRem

open Idealize.ShloMosaic

/-- The floor-style remainder of 32-bit words: the truncating remainder `r`, moved by one divisor when its sign differs
    from the divisor's and it is not zero. -/
def floorRem (x d : BitVec 32) : BitVec 32 :=
  Scalar.select
    (IntOp.andi (IntOp.cmpi .ne (IntOp.cmpi .slt (IntOp.remsi .host x d) 0#32) (IntOp.cmpi .slt d 0#32))
      (IntOp.cmpi .ne (IntOp.remsi .host x d) 0#32))
    (IntOp.addi (IntOp.remsi .host x d) d) (IntOp.remsi .host x d)

/-- The truncating remainder of the word of `p` by the word of `k`, for `p < 2^31` and `0 < k < 2^31`, is the word
    of `p % k`. -/
theorem remsi_ofNat (u : ArithUnit) (p k : ℕ) (hp : p < 2 ^ 31) (hk : 0 < k) (hk' : k < 2 ^ 31) :
    IntOp.remsi u (BitVec.ofNat 32 p) (BitVec.ofNat 32 k) = BitVec.ofNat 32 (p % k) := by
  have hpN : (BitVec.ofNat 32 p).toNat = p := by rw [BitVec.toNat_ofNat]; omega
  have hlt : p % k < k := Nat.mod_lt _ hk
  apply BitVec.eq_of_toNat_eq
  rw [IntOp.toNat_remsi u (by rw [hpN]; omega) k hk (by omega), hpN, BitVec.toNat_ofNat]
  omega

/-- A word below `2^31` is not negative when read signed. -/
theorem slt_zero_ofNat (n : ℕ) (hn : n < 2 ^ 31) : IntOp.cmpi .slt (BitVec.ofNat 32 n) 0#32 = 0#1 := by
  have h : ¬ (IntOp.cmpi .slt (BitVec.ofNat 32 n) 0#32 = 1#1) := by
    rw [IntOp.cmpi_slt, BitVec.toInt_eq_toNat_of_lt (by rw [BitVec.toNat_ofNat]; omega)]
    show ¬ (((BitVec.ofNat 32 n).toNat : ℤ) < 0)
    omega
  revert h; generalize IntOp.cmpi .slt (BitVec.ofNat 32 n) 0#32 = c; revert c; decide

/-- On a nonnegative dividend below `2^31` and a positive divisor below `2^31` the floor-style remainder is the
    word of the natural-number remainder. -/
theorem floorRem_ofNat (p k : ℕ) (hp : p < 2 ^ 31) (hk : 0 < k) (hk' : k < 2 ^ 31) :
    floorRem (BitVec.ofNat 32 p) (BitVec.ofNat 32 k) = BitVec.ofNat 32 (p % k) := by
  have hlt : p % k < k := Nat.mod_lt _ hk
  unfold floorRem
  rw [remsi_ofNat .host p k hp hk hk', slt_zero_ofNat (p % k) (by omega), slt_zero_ofNat k hk']
  have hc : ∀ c : BitVec 1, IntOp.andi (IntOp.cmpi .ne 0#1 0#1) c = 0#1 := by decide
  rw [hc]
  exact if_neg (by decide)

/-! ## The same remainder spelled over arrays: an array of words by one scalar word

The scalar divisor is repeated to the array's shape wherever it meets the array; the zero the signs are compared with
is a repeated scalar too. Read at an index this is the word-level remainder of the element by the scalar. -/

open Idealize.ShloMosaic.ValueIdx

/-- The floor-style remainder of every element of `x` by the scalar `d`. -/
def floorRemArr {s : Shape} (bc : (⟨0, ![]⟩ : Shape).BroadcastsInDim s ![]) (x : IVec s 32) (d : IVec ⟨0, ![]⟩ 32) : IVec s 32 :=
  select
    (andi
      (cmpi .ne
        (cmpi .slt (Host.remsi x (broadcastInDim s ![] bc d)) (broadcastInDim s ![] bc (constantI ⟨0, ![]⟩ 32 0#32)))
        (broadcastInDim s ![] bc (cmpi .slt d (constantI ⟨0, ![]⟩ 32 0#32))))
      (cmpi .ne (Host.remsi x (broadcastInDim s ![] bc d)) (broadcastInDim s ![] bc (constantI ⟨0, ![]⟩ 32 0#32))))
    (addi (Host.remsi x (broadcastInDim s ![] bc d)) (broadcastInDim s ![] bc d))
    (Host.remsi x (broadcastInDim s ![] bc d))

/-- At an index the array form is the word form on the element and the scalar. -/
theorem floorRemArr_apply {s : Shape} (bc : (⟨0, ![]⟩ : Shape).BroadcastsInDim s ![]) (x : IVec s 32) (d : IVec ⟨0, ![]⟩ 32)
    (i : s.Idx) : floorRemArr bc x d i = floorRem (x i) (d ix0) := by
  unfold floorRemArr floorRem
  rw [select_apply]
  show Scalar.select
      (IntOp.andi
        (IntOp.cmpi .ne
          (IntOp.cmpi .slt (IntOp.remsi .host (x i) (broadcastInDim s ![] bc d i))
            (broadcastInDim s ![] bc (constantI ⟨0, ![]⟩ 32 0#32) i))
          (broadcastInDim s ![] bc (cmpi .slt d (constantI ⟨0, ![]⟩ 32 0#32)) i))
        (IntOp.cmpi .ne (IntOp.remsi .host (x i) (broadcastInDim s ![] bc d i))
          (broadcastInDim s ![] bc (constantI ⟨0, ![]⟩ 32 0#32) i)))
      (IntOp.addi (IntOp.remsi .host (x i) (broadcastInDim s ![] bc d i)) (broadcastInDim s ![] bc d i))
      (IntOp.remsi .host (x i) (broadcastInDim s ![] bc d i)) = _
  simp only [broadcastInDim_scalar_apply]
  rfl

/-- The array form at an index whose element is the word of `p`, by a scalar that is the word of `k`. -/
theorem floorRemArr_ofNat {s : Shape} (bc : (⟨0, ![]⟩ : Shape).BroadcastsInDim s ![]) (x : IVec s 32) (d : IVec ⟨0, ![]⟩ 32)
    (i : s.Idx) (p k : ℕ) (hx : x i = BitVec.ofNat 32 p) (hd : d ix0 = BitVec.ofNat 32 k)
    (hp : p < 2 ^ 31) (hk : 0 < k) (hk' : k < 2 ^ 31) : floorRemArr bc x d i = BitVec.ofNat 32 (p % k) := by
  rw [floorRemArr_apply, hx, hd, floorRem_ofNat p k hp hk hk']

end Cert.Lib.JnpRem
-- ==== Proof.LibJnpDiv.lean ====
/-
  The quotient rounded toward minus infinity, as an array library spells it over machine words, on a
  nonnegative dividend and a positive divisor.

  The spelling is: take the truncating signed quotient `q` of `x` by `d`; if `x` and `d` have different signs and
  the truncating remainder of `x` by `d` is not zero, lower `q` by one, otherwise keep `q`. For `x = p` with
  `0 ≤ p < 2^31` and `d = k` with `0 < k < 2^31` the truncating quotient is already `p / k`; when `p = 0` the
  remainder is zero, and when `p > 0` both signs are `1`, so the correction never fires and the result is the word of
  `p / k`.
-/
import Idealize.ShloMosaic.Lib.Affine
import Idealize.ShloMosaic.Lib.IdealHost
import proofs.«126143_j24739011625310_2_alg».proof.Proof.LibJnpRem

namespace Cert.Lib.JnpDiv

open Idealize.ShloMosaic

/-- The sign of a 32-bit word read signed, as a word: `0` at zero, `-1` when the top bit is set, `1` otherwise. -/
def sgn (x : BitVec 32) : BitVec 32 := if x = 0 then 0 else if x.msb then -1 else 1

/-- The floor-style quotient of 32-bit words: the truncating quotient, lowered by one when the operands' signs differ
    and the truncating remainder is not zero. -/
def floorDiv (x d : BitVec 32) : BitVec 32 :=
  Scalar.select
    (IntOp.andi (IntOp.cmpi .ne (sgn x) (sgn d)) (IntOp.cmpi .ne (IntOp.remsi .host x d) 0#32))
    (IntOp.subi (IntOp.divsi .host x d) 1#32) (IntOp.divsi .host x d)

/-- The truncating quotient of the word of `p` by the word of `k`, for `p < 2^31` and `0 < k < 2^31`, is the word
    of `p / k`. -/
theorem divsi_ofNat (u : ArithUnit) (p k : ℕ) (hp : p < 2 ^ 31) (hk : 0 < k) (hk' : k < 2 ^ 31) :
    IntOp.divsi u (BitVec.ofNat 32 p) (BitVec.ofNat 32 k) = BitVec.ofNat 32 (p / k) := by
  have hpN : (BitVec.ofNat 32 p).toNat = p := by rw [BitVec.toNat_ofNat]; omega
  have hkN : (BitVec.ofNat 32 k).toNat = k := by rw [BitVec.toNat_ofNat]; omega
  have hpm : (BitVec.ofNat 32 p).msb = false := by rw [BitVec.msb_eq_false_iff_two_mul_lt, hpN]; omega
  have hkm : (BitVec.ofNat 32 k).msb = false := by rw [BitVec.msb_eq_false_iff_two_mul_lt, hkN]; omega
  have hpos : 0 < (BitVec.ofNat 32 k).toInt := by rw [BitVec.toInt_eq_toNat_of_lt (by omega)]; omega
  have hdiv : IntOp.divsi u (BitVec.ofNat 32 p) (BitVec.ofNat 32 k) = (BitVec.ofNat 32 p).sdiv (BitVec.ofNat 32 k) :=
    if_neg (IntOp.not_corner_of_pos hpos)
  rw [hdiv, BitVec.sdiv_eq, hpm, hkm]
  apply BitVec.eq_of_toNat_eq
  show ((BitVec.ofNat 32 p) / (BitVec.ofNat 32 k)).toNat = _
  rw [BitVec.toNat_udiv, hpN, hkN, BitVec.toNat_ofNat]
  have hq : p / k ≤ p := Nat.div_le_self _ _
  generalize p / k = q at hq ⊢
  omega

/-- The sign of the word of a positive number below `2^31` is the word `1`. -/
theorem sgn_ofNat_pos (n : ℕ) (hn : 0 < n) (hn' : n < 2 ^ 31) : sgn (BitVec.ofNat 32 n) = 1 := by
  have hN : (BitVec.ofNat 32 n).toNat = n := by rw [BitVec.toNat_ofNat]; omega
  have h0 : BitVec.ofNat 32 n ≠ 0 := fun h => by
    have := congrArg BitVec.toNat h
    rw [hN] at this
    exact absurd this (by change n ≠ 0; omega)
  have hm : (BitVec.ofNat 32 n).msb = false := by rw [BitVec.msb_eq_false_iff_two_mul_lt, hN]; omega
  unfold sgn
  rw [if_neg h0, hm]
  rfl

/-- On a nonnegative dividend below `2^31` and a positive divisor below `2^31` the floor-style quotient is the word
    of the natural-number quotient. -/
theorem floorDiv_ofNat (p k : ℕ) (hp : p < 2 ^ 31) (hk : 0 < k) (hk' : k < 2 ^ 31) :
    floorDiv (BitVec.ofNat 32 p) (BitVec.ofNat 32 k) = BitVec.ofNat 32 (p / k) := by
  unfold floorDiv
  rw [divsi_ofNat .host p k hp hk hk', Cert.Lib.JnpRem.remsi_ofNat .host p k hp hk hk']
  refine if_neg fun h => ?_
  obtain ⟨hs, hr⟩ := IntOp.andi_eq_one.mp h
  rw [IntOp.cmpi_ne] at hs hr
  rcases Nat.eq_zero_or_pos p with h0 | h0
  · subst h0
    exact hr (by rw [Nat.zero_mod])
  · exact hs (by rw [sgn_ofNat_pos p h0 hp, sgn_ofNat_pos k hk hk'])

/-! ## The same quotient spelled over arrays: an array of words by one scalar word

The scalar divisor is repeated to the array's shape wherever it meets the array, and so are its sign, the zero the
remainder is compared with and the one the quotient is lowered by. Read at an index this is the word-level quotient of
the element by the scalar. -/

open Idealize.ShloMosaic.ValueIdx

/-- The floor-style quotient of every element of `x` by the scalar `d0`. -/
def floorDivArr {s : Shape} (bc : (⟨0, ![]⟩ : Shape).BroadcastsInDim s ![]) (x : IVec s 32) (d0 : IVec ⟨0, ![]⟩ 32) : IVec s 32 :=
  select
    (andi
      (cmpi .ne (signi x) (broadcastInDim s ![] bc (signi d0)))
      (cmpi .ne (Host.remsi x (broadcastInDim s ![] bc d0)) (broadcastInDim s ![] bc (constantI ⟨0, ![]⟩ 32 0#32))))
    (subi (Host.divsi x (broadcastInDim s ![] bc d0)) (broadcastInDim s ![] bc (constantI ⟨0, ![]⟩ 32 1#32)))
    (Host.divsi x (broadcastInDim s ![] bc d0))

/-- At an index the array form is the word form on the element and the scalar. -/
theorem floorDivArr_apply {s : Shape} (bc : (⟨0, ![]⟩ : Shape).BroadcastsInDim s ![]) (x : IVec s 32) (d0 : IVec ⟨0, ![]⟩ 32)
    (i : s.Idx) : floorDivArr bc x d0 i = floorDiv (x i) (d0 ix0) := by
  unfold floorDivArr floorDiv
  rw [select_apply]
  show Scalar.select
      (IntOp.andi
        (IntOp.cmpi .ne (signi x i) (broadcastInDim s ![] bc (signi d0) i))
        (IntOp.cmpi .ne (IntOp.remsi .host (x i) (broadcastInDim s ![] bc d0 i))
          (broadcastInDim s ![] bc (constantI ⟨0, ![]⟩ 32 0#32) i)))
      (IntOp.subi (IntOp.divsi .host (x i) (broadcastInDim s ![] bc d0 i))
        (broadcastInDim s ![] bc (constantI ⟨0, ![]⟩ 32 1#32) i))
      (IntOp.divsi .host (x i) (broadcastInDim s ![] bc d0 i)) = _
  simp only [broadcastInDim_scalar_apply]
  rfl

/-- The array form at an index whose element is the word of `p`, by a scalar that is the word of `k`. -/
theorem floorDivArr_ofNat {s : Shape} (bc : (⟨0, ![]⟩ : Shape).BroadcastsInDim s ![]) (x : IVec s 32) (d0 : IVec ⟨0, ![]⟩ 32)
    (i : s.Idx) (p k : ℕ) (hx : x i = BitVec.ofNat 32 p) (hd : d0 ix0 = BitVec.ofNat 32 k)
    (hp : p < 2 ^ 31) (hk : 0 < k) (hk' : k < 2 ^ 31) : floorDivArr bc x d0 i = BitVec.ofNat 32 (p / k) := by
  rw [floorDivArr_apply, hx, hd, floorDiv_ofNat p k hp hk hk']

end Cert.Lib.JnpDiv
-- ==== Proof.ColTable.lean ====
/-
  The column → image table the host program builds before the kernel runs, read at an index.

  The table's row is `c ↦ c // 196` for the 6272 columns `c`, spelled as the floor-style quotient of the column
  counter by the scalar `196`; it is then given a leading unit axis and repeated over 8 rows. Every column is below
  `2^31` and `196` is positive, so the entry at column `c` is the word of `c / 196`: the image the column belongs to.
-/
import proofs.«126143_j24739011625310_2_alg».proof.Proof.Gen.KernelIdeal
import proofs.«126143_j24739011625310_2_alg».proof.Proof.Spec
import proofs.«126143_j24739011625310_2_alg».proof.Proof.LibJnpDiv
import Idealize.ShloMosaic.Lib.Pipeline.Value

namespace Cert.KernelIdeal.ColTable

open Cert.KernelIdeal Idealize.ShloMosaic Idealize.ShloMosaic.ValueIdx Cert.Contrast
open Cert.KernelIdeal.Facts₀ Cert.KernelIdeal.Facts

variable [Cert.KernelIdeal.Facts]

/-- The table's row: the floor-style quotient of the column counter by `196`. -/
def jtab : IVec S6272 32 := Cert.Lib.JnpDiv.floorDivArr bcast_S_S6272 (iotaInDim S6272 32 0) (id (constantI S_ 32 196#32))

/-- The table: the row under a leading unit axis, repeated over 8 rows. -/
def tab8 : IVec S8x6272 32 :=
  broadcastInDim S8x6272 ![0, 1] bcast_S1x6272_S8x6272_0_1 (broadcastInDim S1x6272 ![1] bcast_S6272_S1x6272_1 jtab)

/-- The row at column `c` is the word of the column's image `c / 196`. -/
theorem jtab_apply (c : Fin 6272) : jtab (ix1 c) = BitVec.ofNat 32 (colImg c).val := by
  have hc := c.isLt
  exact Cert.Lib.JnpDiv.floorDivArr_ofNat bcast_S_S6272 (iotaInDim S6272 32 0) (id (constantI S_ 32 196#32)) (ix1 c)
    c.val 196 rfl rfl (by omega) (by decide) (by decide)

/-- Every row of the table at column `c` is the word of the column's image. -/
theorem tab8_apply (r : Fin 8) (c : Fin 6272) : tab8 (ix2 r c) = BitVec.ofNat 32 (colImg c).val := by
  unfold tab8
  rw [broadcastInDim_apply (s := S1x6272) (t := S8x6272) ![0, 1] bcast_S1x6272_S8x6272_0_1 _ (ix2 r c) (ix2 0 c)
      (fun a => by
        match a with
        | ⟨0, _⟩ => rfl
        | ⟨1, _⟩ => rfl),
    broadcastInDim_apply (s := S6272) (t := S1x6272) ![1] bcast_S6272_S1x6272_1 _ (ix2 0 c) (ix1 c)
      (fun a => by
        match a with
        | ⟨0, _⟩ => rfl)]
  exact jtab_apply c

end Cert.KernelIdeal.ColTable
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.PayValue.lean ====
/-
  The values the kernel body stores, read on the extended reals, are the specification's per-image sums.

  At grid point i the body holds x0, the 196 × 768 patches of image i (with a leading unit axis), and a table x1 of
  all 6272 = 32 · 196 patches, column c being patch c % 196 of image c / 196.  It forms

    P[p, c]  =  Σ_k x0[0, p, k] · x1[c, k]            the product of the patches with the table's rows, into zero,
    m[c]     =  max_p P[p, c]                          a running maximum from -∞ over the 196 rows,

  so m[c] = sim A B i (c / 196) (c % 196) when x0 reads A at image i and x1 reads B.  The first stored value is
  the sum over c of  [i < c / 196] · (1 − m[c]),  the indicator being a signed comparison of two numbers below 32
  widened to a word and read as a number; the second is the sum over c of  max (m[c] − 1/2) 0  against the second
  table.  Either sum is taken over a [1, 1, 6272] layout of the row, which is the sum over the 6272 columns, and a
  sum over the columns of a function of (c / 196, c % 196) is the double sum over images and patches: posRow and
  negRow.  The first value is then repeated over an 8 × 128 tile, each entry of which reads the sum.
-/
import proofs.«126143_j24739011625310_2_alg».proof.Proof.Gen.KernelIdeal.Skeleton
import proofs.«126143_j24739011625310_2_alg».proof.Proof.Spec
import proofs.«126143_j24739011625310_2_alg».proof.Proof.LibLayout
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx Cert.Contrast

variable [Cert.KernelIdeal.Facts]

/-! ## The column maxima -/

/-- The maximum over the first axis of a matrix of extended reals, read at column `n`: the fold of `max` over the
    column from the accumulator's value. -/
theorem multiReduction_max_cols {a b : ℕ} (src : FVec Ideal ⟨2, ![a, b]⟩ .f32) (acc : BitVec 32)
    (h : (⟨2, ![a, b]⟩ : Shape).Reduces [0] ⟨1, ![b]⟩) (hφ : FKind.Formats FTy.f32) (hacc : acc = FKind.maximumf.neutral FTy.f32 hφ)
    (n : Fin b) :
    multiReduction .maximumf [0] ⟨1, ![b]⟩ src acc h hφ hacc (ix1 n)
      = (Finset.univ : Finset (Fin a)).fold max (Ideal.ofBits .f32 acc) (fun k => src (ix2 k n)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The column maxima of the product of one image's patches with a table of patches. -/
def colmax (x0 : Vec Ideal S1x196x768 .bf16) (x1 : Vec Ideal S6272x768 .bf16) : FVec Ideal S6272 .f32 :=
  multiReduction .maximumf [0] S6272
    (matmul dot_S196x768_S6272x768_S196x6272_1_1_0_0_n_n none (k0_pay2 x0)
      (shapeCast S6272x768 x1 shapeCasts_S6272x768_S6272x768 : FVec Ideal S6272x768 .bf16) (constant S196x6272 .f32 0x00000000#32))
    0xFF800000#32 reduces_S196x6272_S6272 (.inl rfl) rfl

/-- Read at column `c`: patch `c % 196` of image `c / 196` of the table against its best match in the image. -/
theorem colmax_apply (x0 : Vec Ideal S1x196x768 .bf16) (x1 : Vec Ideal S6272x768 .bf16) (A B : Arr) (i : Fin 32)
    (h0 : ∀ (p : Fin 196) (k : Fin 768), x0 (ix3 0 p k) = A (ix3 i p k))
    (h1 : ∀ (c : Fin 6272) (k : Fin 768), x1 (ix2 c k) = B (ix3 (colImg c) (colPatch c) k))
    (c : Fin 6272) : colmax x0 x1 (ix1 c) = sim A B i (colImg c) (colPatch c) := by
  unfold colmax
  refine (multiReduction_max_cols _ _ _ _ _ c).trans ?_
  unfold sim
  refine congrArg (Finset.fold max _ · Finset.univ) (funext fun p => ?_)
  refine (Cert.LibLayout.matmul_rows_rows_apply dot_S196x768_S6272x768_S196x6272_1_1_0_0_n_n rfl rfl rfl rfl
    (fun _ _ => rfl) (fun _ _ => rfl) none _ _ p c).trans ?_
  unfold dot
  refine Finset.sum_congr rfl fun k _ => ?_
  have e0 : k0_pay2 (F := Ideal) x0 (ix2 p k) = A (ix3 i p k) :=
    (shapeCast_1ab_ab_apply x0 shapeCasts_S1x196x768_S196x768 p k).trans (h0 p k)
  have e1 : (shapeCast S6272x768 x1 shapeCasts_S6272x768_S6272x768 : FVec Ideal S6272x768 .bf16) (ix2 c k)
      = B (ix3 (colImg c) (colPatch c) k) := by
    rw [shapeCast_self]; exact h1 c k
  rw [e0, e1]

/-! ## The mask word -/

/-- A number below 32 written as a 32-bit word reads back, signed, as itself. -/
theorem toInt_ofNat_small (n : Nat) (h : n < 32) : (BitVec.ofNat 32 n).toInt = (n : Int) := by
  have hn : (BitVec.ofNat 32 n).toNat = n := by
    rw [BitVec.toNat_ofNat]; exact Nat.mod_eq_of_lt (by omega)
  rw [BitVec.toInt_eq_toNat_of_lt (by rw [hn]; omega), hn]

/-- The signed comparison of two image numbers, widened to a word and read as a number, is the strict upper
    triangle's indicator. -/
theorem mask_word (i j : Fin 32) :
    ((((IntOp.cmpi .slt (BitVec.ofNat 32 i.val) (BitVec.ofNat 32 j.val)).setWidth 32).toInt : ℝ) : EReal) = mask i j := by
  unfold mask
  by_cases h : i.val < j.val
  · have hc : IntOp.cmpi .slt (BitVec.ofNat 32 i.val) (BitVec.ofNat 32 j.val) = 1#1 :=
      IntOp.cmpi_slt.mpr (by rw [toInt_ofNat_small _ i.isLt, toInt_ofNat_small _ j.isLt]; exact_mod_cast h)
    rw [hc, if_pos h]
    have e : ((1#1 : BitVec 1).setWidth 32).toInt = 1 := by decide
    rw [e]; norm_num
  · have hc : IntOp.cmpi .slt (BitVec.ofNat 32 i.val) (BitVec.ofNat 32 j.val) = 0#1 :=
      eq_zero_of_ne_one (fun h1 => h (by
        have h2 := IntOp.cmpi_slt.mp h1
        rw [toInt_ofNat_small _ i.isLt, toInt_ofNat_small _ j.isLt] at h2
        exact_mod_cast h2))
    rw [hc, if_neg h]
    have e : ((0#1 : BitVec 1).setWidth 32).toInt = 0 := by decide
    rw [e]; norm_num

/-- The mask row of grid point `i`: the comparison of its image number with each column's image number. -/
def maskRow (i : grid0.Coords) (x7 : Vec Ideal S1x6272 .i32) : FVec Ideal S1x6272 .f32 :=
  sitofp .f32 (extui 32 (cmpi .slt (broadcast S1x6272 (BitVec.ofNat 32 (i 0).val))
    (shapeCast S1x6272 x7 shapeCasts_S1x6272_S1x6272 : IVec S1x6272 32)) natLt_1_32)

/-- Read at column `c`: the indicator that the grid point's image precedes the column's. -/
theorem maskRow_apply (i : grid0.Coords) (x7 : Vec Ideal S1x6272 .i32)
    (h7 : ∀ c : Fin 6272, x7 (ix2 0 c) = BitVec.ofNat 32 (colImg c).val) (c : Fin 6272) :
    maskRow i x7 (ix2 0 c) = mask ⟨(i 0).val, (i 0).isLt⟩ (colImg c) := by
  refine Eq.trans ?_ (mask_word ⟨(i 0).val, (i 0).isLt⟩ (colImg c))
  unfold maskRow
  rw [shapeCast_self]
  show ((((IntOp.cmpi .slt (BitVec.ofNat 32 (i 0).val) (x7 (ix2 0 c))).setWidth 32).toInt : ℝ) : EReal) = _
  rw [h7 c]

/-! ## The total of a row -/

/-- A row `[1, 6272]` laid as `[1, 1, 6272]`, summed over its last two axes into `[1]`, laid as `[1, 1, 1]` and read at
    its one entry. -/
def rowTotal (v : FVec Ideal S1x6272 .f32) : Ideal .f32 :=
  extractAt ![0, 0, 0] (shapeCast S1x1x1 (multiReduction .add [1, 2] S1
    (shapeCast S1x1x6272 v shapeCasts_S1x6272_S1x1x6272) 0x00000000#32 reduces_S1x1x6272_S1 (.inl rfl) rfl)
    shapeCasts_S1_S1x1x1) inpos_S1x1x1_p0_0_0

/-- It is the sum of the row. -/
theorem rowTotal_apply (v : FVec Ideal S1x6272 .f32) : rowTotal v = ∑ c : Fin 6272, v (ix2 0 c) := by
  unfold rowTotal extractAt
  refine (shapeCast_apply _ shapeCasts_S1_S1x1x1 _ (ix1 (0 : Fin 1)) (by
    rw [Shape.rowMajor_val_three, Shape.rowMajor_val_one]; rfl)).trans ?_
  refine (Ideal.multiReduction_add_total _ _ reduces_S1x1x6272_S1 (fun b => by match b with | ⟨0, _⟩ => rfl) _ _ _).trans ?_
  refine (sum_idx3 _).trans ?_
  rw [Fin.sum_univ_one, Fin.sum_univ_one]
  refine Finset.sum_congr rfl fun c _ => ?_
  exact shapeCast_ab_1ab_apply v shapeCasts_S1x6272_S1x1x6272 0 0 c

/-! ## The stored values -/

/-- A scalar repeated over a tile, with a unit axis added, reads the scalar everywhere. -/
theorem splat_apply (v : Ideal .f32) (y : S1x8x128.Idx) : k0_pay1 (F := Ideal) v y = v := rfl

/-- The row of negative terms: the column maxima less one half, floored at zero. -/
def negVec (x0 : Vec Ideal S1x196x768 .bf16) (x2 : Vec Ideal S6272x768 .bf16) : FVec Ideal S1x6272 .f32 :=
  maximumf (subf (shapeCast S1x6272 (colmax x0 x2) shapeCasts_S6272_S1x6272)
      (broadcast S1x6272 (Scalar.ofBits .f32 0x3F000000#32)))
    (broadcast S1x6272 (Scalar.ofBits .f32 0x00000000#32))

/-- The second value is that row's total. -/
theorem pay4_eq (x0 : Vec Ideal S1x196x768 .bf16) (x2 : Vec Ideal S6272x768 .bf16) :
    k0_pay4 (F := Ideal) x0 x2 = rowTotal (negVec x0 x2) := rfl

/-- The row of positive terms: the mask row times one less the column maxima. -/
def posVec (i : grid0.Coords) (x0 : Vec Ideal S1x196x768 .bf16) (x1 : Vec Ideal S6272x768 .bf16)
    (x7 : Vec Ideal S1x6272 .i32) : FVec Ideal S1x6272 .f32 :=
  mulf (maskRow i x7) (subf (broadcast S1x6272 (Scalar.ofBits .f32 0x3F800000#32))
    (shapeCast S1x6272 (colmax x0 x1) shapeCasts_S6272_S1x6272))

/-- The first stored value is the row's total, repeated over the tile. -/
theorem pay3_eq (i : grid0.Coords) (x0 : Vec Ideal S1x196x768 .bf16) (x1 : Vec Ideal S6272x768 .bf16)
    (x7 : Vec Ideal S1x6272 .i32) :
    k0_pay3 (F := Ideal) i x0 x1 x7 = k0_pay1 (rowTotal (posVec i x0 x1 x7)) := rfl

/-- The row of negative terms read at column `c`. -/
theorem negVec_apply (x0 : Vec Ideal S1x196x768 .bf16) (x2 : Vec Ideal S6272x768 .bf16) (A B : Arr) (i : Fin 32)
    (h0 : ∀ (p : Fin 196) (k : Fin 768), x0 (ix3 0 p k) = A (ix3 i p k))
    (h2 : ∀ (c : Fin 6272) (k : Fin 768), x2 (ix2 c k) = B (ix3 (colImg c) (colPatch c) k)) (c : Fin 6272) :
    negVec x0 x2 (ix2 0 c) = negTerm A B i (colImg c) (colPatch c) := by
  unfold negVec
  rw [maximumf_apply, subf_apply, broadcast_apply, broadcast_apply,
    shapeCast_a_1a_apply (colmax x0 x2) shapeCasts_S6272_S1x6272 0 c, colmax_apply x0 x2 A B i h0 h2 c]
  show max (sim A B i (colImg c) (colPatch c) - half) (Ideal.ofBits .f32 0x00000000#32) = _
  rw [Ideal.ofBits_zero_f32]
  rfl

/-- The row of positive terms read at column `c`. -/
theorem posVec_apply (i : grid0.Coords) (x0 : Vec Ideal S1x196x768 .bf16) (x1 : Vec Ideal S6272x768 .bf16)
    (x7 : Vec Ideal S1x6272 .i32) (A : Arr)
    (h0 : ∀ (p : Fin 196) (k : Fin 768), x0 (ix3 0 p k) = A (ix3 ⟨(i 0).val, (i 0).isLt⟩ p k))
    (h1 : ∀ (c : Fin 6272) (k : Fin 768), x1 (ix2 c k) = A (ix3 (colImg c) (colPatch c) k))
    (h7 : ∀ c : Fin 6272, x7 (ix2 0 c) = BitVec.ofNat 32 (colImg c).val) (c : Fin 6272) :
    posVec i x0 x1 x7 (ix2 0 c) = posTerm A ⟨(i 0).val, (i 0).isLt⟩ (colImg c) (colPatch c) := by
  unfold posVec
  rw [mulf_apply, subf_apply, broadcast_apply, maskRow_apply i x7 h7 c,
    shapeCast_a_1a_apply (colmax x0 x1) shapeCasts_S6272_S1x6272 0 c,
    colmax_apply x0 x1 A A ⟨(i 0).val, (i 0).isLt⟩ h0 h1 c]
  rfl

/-- The first stored value: every entry is the image's sum of the positive terms. -/
theorem pay3_apply (i : grid0.Coords) (x0 : Vec Ideal S1x196x768 .bf16) (x1 : Vec Ideal S6272x768 .bf16)
    (x7 : Vec Ideal S1x6272 .i32) (A : Arr)
    (h0 : ∀ (p : Fin 196) (k : Fin 768), x0 (ix3 0 p k) = A (ix3 ⟨(i 0).val, (i 0).isLt⟩ p k))
    (h1 : ∀ (c : Fin 6272) (k : Fin 768), x1 (ix2 c k) = A (ix3 (colImg c) (colPatch c) k))
    (h7 : ∀ c : Fin 6272, x7 (ix2 0 c) = BitVec.ofNat 32 (colImg c).val)
    (y : S1x8x128.Idx) :
    k0_pay3 (F := Ideal) i x0 x1 x7 y = posRow A ⟨(i 0).val, (i 0).isLt⟩ := by
  rw [pay3_eq, splat_apply, rowTotal_apply]
  unfold posRow
  refine Eq.trans ?_ (sum_cols fun j q => posTerm A ⟨(i 0).val, (i 0).isLt⟩ j q)
  exact Finset.sum_congr rfl fun c _ => posVec_apply i x0 x1 x7 A h0 h1 h7 c

/-- The second value: the image's sum of the negative terms. -/
theorem pay4_apply (x0 : Vec Ideal S1x196x768 .bf16) (x2 : Vec Ideal S6272x768 .bf16) (A B : Arr) (i : Fin 32)
    (h0 : ∀ (p : Fin 196) (k : Fin 768), x0 (ix3 0 p k) = A (ix3 i p k))
    (h2 : ∀ (c : Fin 6272) (k : Fin 768), x2 (ix2 c k) = B (ix3 (colImg c) (colPatch c) k)) :
    k0_pay4 (F := Ideal) x0 x2 = negRow A B i := by
  rw [pay4_eq, rowTotal_apply]
  unfold negRow
  refine Eq.trans ?_ (sum_cols fun j q => negTerm A B i j q)
  exact Finset.sum_congr rfl fun c _ => negVec_apply x0 x2 A B i h0 h2 c

/-- The last stored value: a scalar repeated over the tile reads the scalar at every entry. -/
theorem pay1_apply (v : Ideal .f32) (y : S1x8x128.Idx) : k0_pay1 (F := Ideal) v y = v := splat_apply v y

end Cert.KernelIdeal.PayValue

end
-- ==== Proof.LibConcat3.lean ====
/-
  Three arrays laid end to end along one axis, the transpose of a matrix, and the regrouping of the leading two axes of
  a rank-3 array into one axis of rows, each read at an index written by coordinates.

  Along the joined axis a position below the first extent lies in the first piece; a position that is the first extent
  plus an offset below the second extent lies in the second piece at that offset; a position that is the first two
  extents plus an offset lies in the third piece.  A transposed matrix at (j, i) is the matrix at (i, j).  Row
  n * b + s of the regrouped array is row s of plane n, because both orders are row-major.
-/
import Idealize.ShloMosaic.Lib.Pipeline.Value
import Idealize.ShloMosaic.Lib.ValueIdx

namespace Cert.LibConcat3

open Idealize.ShloMosaic Idealize.ShloMosaic.ValueIdx

variable {α : Type}

/-! ## Three vectors end to end -/

/-- Three vectors laid end to end, read at a position below the first extent: the first vector there. -/
theorem concat3_vec_apply_fst {b₀ b₁ b₂ b : ℕ} (x₀ : (⟨1, ![b₀]⟩ : Shape).Idx → α) (x₁ : (⟨1, ![b₁]⟩ : Shape).Idx → α)
    (x₂ : (⟨1, ![b₂]⟩ : Shape).Idx → α)
    (h : Shape.Concatenates [(⟨1, ![b₀]⟩ : Shape), ⟨1, ![b₁]⟩, ⟨1, ![b₂]⟩] ⟨1, ![b]⟩ 0)
    (j : Fin b) (c : Fin b₀) (hj : j.val = c.val) :
    concatenate ⟨1, ![b]⟩ 0 [⟨⟨1, ![b₀]⟩, x₀⟩, ⟨⟨1, ![b₁]⟩, x₁⟩, ⟨⟨1, ![b₂]⟩, x₂⟩] h (ix1 j) = x₀ (ix1 c) :=
  concatenate_apply_piece (t := ⟨1, ![b]⟩) 0 [⟨⟨1, ![b₀]⟩, x₀⟩, ⟨⟨1, ![b₁]⟩, x₁⟩, ⟨⟨1, ![b₂]⟩, x₂⟩] h (ix1 j) 0 (by simp) _ x₀ rfl rfl 0 rfl (ix1 c)
    (fun d hd => by match d with | ⟨0, _⟩ => exact absurd rfl hd)
    (by show 0 + c.val = j.val; omega)

/-- Three vectors laid end to end, read at the first extent plus an offset: the second vector at the offset. -/
theorem concat3_vec_apply_snd {b₀ b₁ b₂ b : ℕ} (x₀ : (⟨1, ![b₀]⟩ : Shape).Idx → α) (x₁ : (⟨1, ![b₁]⟩ : Shape).Idx → α)
    (x₂ : (⟨1, ![b₂]⟩ : Shape).Idx → α)
    (h : Shape.Concatenates [(⟨1, ![b₀]⟩ : Shape), ⟨1, ![b₁]⟩, ⟨1, ![b₂]⟩] ⟨1, ![b]⟩ 0)
    (j : Fin b) (c : Fin b₁) (hj : j.val = b₀ + c.val) :
    concatenate ⟨1, ![b]⟩ 0 [⟨⟨1, ![b₀]⟩, x₀⟩, ⟨⟨1, ![b₁]⟩, x₁⟩, ⟨⟨1, ![b₂]⟩, x₂⟩] h (ix1 j) = x₁ (ix1 c) :=
  concatenate_apply_piece (t := ⟨1, ![b]⟩) 0 [⟨⟨1, ![b₀]⟩, x₀⟩, ⟨⟨1, ![b₁]⟩, x₁⟩, ⟨⟨1, ![b₂]⟩, x₂⟩] h (ix1 j) 1 (by simp) _ x₁ rfl rfl b₀ (Nat.add_zero b₀) (ix1 c)
    (fun d hd => by match d with | ⟨0, _⟩ => exact absurd rfl hd)
    (by show b₀ + c.val = j.val; omega)

/-- Three vectors laid end to end, read at the first two extents plus an offset: the third vector at the offset. -/
theorem concat3_vec_apply_thd {b₀ b₁ b₂ b : ℕ} (x₀ : (⟨1, ![b₀]⟩ : Shape).Idx → α) (x₁ : (⟨1, ![b₁]⟩ : Shape).Idx → α)
    (x₂ : (⟨1, ![b₂]⟩ : Shape).Idx → α)
    (h : Shape.Concatenates [(⟨1, ![b₀]⟩ : Shape), ⟨1, ![b₁]⟩, ⟨1, ![b₂]⟩] ⟨1, ![b]⟩ 0)
    (j : Fin b) (c : Fin b₂) (hj : j.val = b₀ + b₁ + c.val) :
    concatenate ⟨1, ![b]⟩ 0 [⟨⟨1, ![b₀]⟩, x₀⟩, ⟨⟨1, ![b₁]⟩, x₁⟩, ⟨⟨1, ![b₂]⟩, x₂⟩] h (ix1 j) = x₂ (ix1 c) :=
  concatenate_apply_piece (t := ⟨1, ![b]⟩) 0 [⟨⟨1, ![b₀]⟩, x₀⟩, ⟨⟨1, ![b₁]⟩, x₁⟩, ⟨⟨1, ![b₂]⟩, x₂⟩] h (ix1 j) 2 (by simp) _ x₂ rfl rfl (b₀ + (b₁ + 0)) rfl (ix1 c)
    (fun d hd => by match d with | ⟨0, _⟩ => exact absurd rfl hd)
    (by show b₀ + (b₁ + 0) + c.val = j.val; omega)

/-! ## Three matrices side by side -/

/-- Three matrices of one height laid side by side, read at a column below the first width: the first matrix there. -/
theorem concat3_cols_apply_fst {a b₀ b₁ b₂ b : ℕ} (x₀ : (⟨2, ![a, b₀]⟩ : Shape).Idx → α)
    (x₁ : (⟨2, ![a, b₁]⟩ : Shape).Idx → α) (x₂ : (⟨2, ![a, b₂]⟩ : Shape).Idx → α)
    (h : Shape.Concatenates [(⟨2, ![a, b₀]⟩ : Shape), ⟨2, ![a, b₁]⟩, ⟨2, ![a, b₂]⟩] ⟨2, ![a, b]⟩ 1)
    (r : Fin a) (j : Fin b) (c : Fin b₀) (hj : j.val = c.val) :
    concatenate ⟨2, ![a, b]⟩ 1 [⟨⟨2, ![a, b₀]⟩, x₀⟩, ⟨⟨2, ![a, b₁]⟩, x₁⟩, ⟨⟨2, ![a, b₂]⟩, x₂⟩] h (ix2 r j)
      = x₀ (ix2 r c) :=
  concatenate_apply_piece (t := ⟨2, ![a, b]⟩) 1 [⟨⟨2, ![a, b₀]⟩, x₀⟩, ⟨⟨2, ![a, b₁]⟩, x₁⟩, ⟨⟨2, ![a, b₂]⟩, x₂⟩] h (ix2 r j) 0 (by simp) _ x₀ rfl rfl 0 rfl (ix2 r c)
    (fun d hd => by match d with | ⟨0, _⟩ => rfl | ⟨1, _⟩ => exact absurd rfl hd)
    (by show 0 + c.val = j.val; omega)

/-- Three matrices of one height laid side by side, read at the first width plus an offset: the second matrix at the
    offset. -/
theorem concat3_cols_apply_snd {a b₀ b₁ b₂ b : ℕ} (x₀ : (⟨2, ![a, b₀]⟩ : Shape).Idx → α)
    (x₁ : (⟨2, ![a, b₁]⟩ : Shape).Idx → α) (x₂ : (⟨2, ![a, b₂]⟩ : Shape).Idx → α)
    (h : Shape.Concatenates [(⟨2, ![a, b₀]⟩ : Shape), ⟨2, ![a, b₁]⟩, ⟨2, ![a, b₂]⟩] ⟨2, ![a, b]⟩ 1)
    (r : Fin a) (j : Fin b) (c : Fin b₁) (hj : j.val = b₀ + c.val) :
    concatenate ⟨2, ![a, b]⟩ 1 [⟨⟨2, ![a, b₀]⟩, x₀⟩, ⟨⟨2, ![a, b₁]⟩, x₁⟩, ⟨⟨2, ![a, b₂]⟩, x₂⟩] h (ix2 r j)
      = x₁ (ix2 r c) :=
  concatenate_apply_piece (t := ⟨2, ![a, b]⟩) 1 [⟨⟨2, ![a, b₀]⟩, x₀⟩, ⟨⟨2, ![a, b₁]⟩, x₁⟩, ⟨⟨2, ![a, b₂]⟩, x₂⟩] h (ix2 r j) 1 (by simp) _ x₁ rfl rfl b₀ (Nat.add_zero b₀) (ix2 r c)
    (fun d hd => by match d with | ⟨0, _⟩ => rfl | ⟨1, _⟩ => exact absurd rfl hd)
    (by show b₀ + c.val = j.val; omega)

/-- Three matrices of one height laid side by side, read at the first two widths plus an offset: the third matrix at
    the offset. -/
theorem concat3_cols_apply_thd {a b₀ b₁ b₂ b : ℕ} (x₀ : (⟨2, ![a, b₀]⟩ : Shape).Idx → α)
    (x₁ : (⟨2, ![a, b₁]⟩ : Shape).Idx → α) (x₂ : (⟨2, ![a, b₂]⟩ : Shape).Idx → α)
    (h : Shape.Concatenates [(⟨2, ![a, b₀]⟩ : Shape), ⟨2, ![a, b₁]⟩, ⟨2, ![a, b₂]⟩] ⟨2, ![a, b]⟩ 1)
    (r : Fin a) (j : Fin b) (c : Fin b₂) (hj : j.val = b₀ + b₁ + c.val) :
    concatenate ⟨2, ![a, b]⟩ 1 [⟨⟨2, ![a, b₀]⟩, x₀⟩, ⟨⟨2, ![a, b₁]⟩, x₁⟩, ⟨⟨2, ![a, b₂]⟩, x₂⟩] h (ix2 r j)
      = x₂ (ix2 r c) :=
  concatenate_apply_piece (t := ⟨2, ![a, b]⟩) 1 [⟨⟨2, ![a, b₀]⟩, x₀⟩, ⟨⟨2, ![a, b₁]⟩, x₁⟩, ⟨⟨2, ![a, b₂]⟩, x₂⟩] h (ix2 r j) 2 (by simp) _ x₂ rfl rfl (b₀ + (b₁ + 0)) rfl (ix2 r c)
    (fun d hd => by match d with | ⟨0, _⟩ => rfl | ⟨1, _⟩ => exact absurd rfl hd)
    (by show b₀ + (b₁ + 0) + c.val = j.val; omega)

/-! ## The transpose of a matrix -/

/-- The transpose of an `[a, b]` matrix reads, at (j, i), the matrix at (i, j). -/
theorem transpose_10_apply {a b : ℕ} (x : (⟨2, ![a, b]⟩ : Shape).Idx → α)
    (h : (⟨2, ![a, b]⟩ : Shape).Transposes [1, 0] ⟨2, ![b, a]⟩) (i : Fin a) (j : Fin b) :
    transpose ⟨2, ![b, a]⟩ [1, 0] x h (ix2 j i) = x (ix2 i j) :=
  transpose_apply [1, 0] x h (ix2 j i) (ix2 i j) fun d => by
    match d with
    | ⟨0, _⟩ => rfl
    | ⟨1, _⟩ => rfl

/-! ## Planes of rows as one run of rows, and back -/

/-- An `[a, b, c]` array regrouped as `[m, c]` reads, at row `n * b + s`, row `s` of plane `n`. -/
theorem shapeCast_planes_rows_apply {a b c m : ℕ} (x : (⟨3, ![a, b, c]⟩ : Shape).Idx → α)
    (h : (⟨3, ![a, b, c]⟩ : Shape).ShapeCasts ⟨2, ![m, c]⟩) (n : Fin a) (s : Fin b) (e : Fin c) (row : Fin m)
    (hrow : row.val = n.val * b + s.val) :
    shapeCast ⟨2, ![m, c]⟩ x h (ix2 row e) = x (ix3 n s e) :=
  shapeCast_apply x h _ _ (by
    rw [Shape.rowMajor_val_three, Shape.rowMajor_val_two]
    show (n.val * b + s.val) * c + e.val = row.val * c + e.val
    rw [hrow])

/-- An `[m, c]` array regrouped as `[a, b, c]` reads, at row `s` of plane `n`, row `n * b + s`. -/
theorem shapeCast_rows_planes_apply {a b c m : ℕ} (y : (⟨2, ![m, c]⟩ : Shape).Idx → α)
    (h : (⟨2, ![m, c]⟩ : Shape).ShapeCasts ⟨3, ![a, b, c]⟩) (n : Fin a) (s : Fin b) (e : Fin c) (row : Fin m)
    (hrow : row.val = n.val * b + s.val) :
    shapeCast ⟨3, ![a, b, c]⟩ y h (ix3 n s e) = y (ix2 row e) :=
  shapeCast_apply y h _ _ (by
    rw [Shape.rowMajor_val_three, Shape.rowMajor_val_two]
    show row.val * c + e.val = (n.val * b + s.val) * c + e.val
    rw [hrow])

end Cert.LibConcat3
-- ==== Proof.KernelValue.lean ====
/-
  The kernel program's result is the contrastive patch loss of its two normalised arguments.

  The launch runs the body once per image `i` (32 grid points).  At point `i` the first window's block is image `i` of
  the normalised first argument `A`; the second and third windows hold the whole tables of patches of `A` and of the
  normalised second argument `B`, row `j · 196 + q` being patch `q` of image `j`; the fourth window holds the table
  sending a column to its image.  The body therefore stores, everywhere in its 8 × 128 output blocks, the two
  per-image sums `posRow A i` and `negRow A B i`; block `i` of each output array is written by point `i` alone and
  the 32 blocks tile the array, so the output arrays end as `(i, r, l) ↦ posRow A i` and `(i, r, l) ↦ negRow A B i`.
  After the launch the program reads entry `(i, 0, 0)` of each, sums over the 32 images from zero, divides by the
  two counts and adds: that is `loss A B`.
-/
import proofs.«126143_j24739011625310_2_alg».proof.Proof.KernelHost
import proofs.«126143_j24739011625310_2_alg».proof.Proof.ColTable
import proofs.«126143_j24739011625310_2_alg».proof.Proof.PayValue
import proofs.«126143_j24739011625310_2_alg».proof.Proof.LibConcat3
import Idealize.ShloMosaic.Lib.Pipeline.Value
import Idealize.ShloMosaic.Lib.IdealHost

set_option maxRecDepth 16384

noncomputable section

namespace Cert.KernelIdeal.KValue

open Cert.KernelIdeal Cert.KernelIdeal.Gen Cert.KernelIdeal.GenP Cert.KernelIdeal.HostValue
open Idealize.ShloMosaic Idealize.ShloMosaic.TcCoe Idealize.SL.Sem Idealize.ShloMosaic.ValueIdx
open Idealize.ShloMosaic.Pipeline (Dat)
open Idealize.ShloMosaic.StableHlo
open Cert.Contrast

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the 32 grid points: the point is its one coordinate; the first window and both output
    windows sit at block `(t, 0, 0)`, the three resident tables at block `(0, 0)`. -/
theorem idx_facts : ∀ t : Fin cfg0.N,
    (grid0.coords t (0 : Fin 1)).val = t.val
    ∧ win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- The two normalised arguments. -/
abbrev argA (c : Dev nD) : Arr := nrm (m (c, Proc.tc.devRef main_arg0))
abbrev argB (c : Dev nD) : Arr := nrm (m (c, Proc.tc.devRef main_arg1))

/-! ## The input blocks at a grid point -/

/-- The column→image table as the fourth window finds it. -/
theorem V_v17 (c : Dev nD) : (V m c main_v17 : (⟨S8x6272, .i32⟩ : BufTy).Contents (Elt Ideal)) = ColTable.tab8 := by
  dsimp only [GenP.V, GenP.V0]
  simp only [hostOps0, hostOps0_1, hostOps0_2, hostOps0_3, hostOps0_4, hostOps0_5, List.flatten_cons, List.flatten_nil, List.append_nil, List.cons_append, List.nil_append]
  after_results_simp <;> rfl

/-- The first window's block at point `t` is image `t` of `A`. -/
theorem blk0 (c : Dev nD) (t : Fin cfg0.N) (p : Fin 196) (k : Fin 768) :
    iblk m c 0 t (ix3 0 p k) = argA m c (ix3 ⟨(grid0.coords t (0 : Fin 1)).val, (grid0.coords t (0 : Fin 1)).isLt⟩ p k) := by
  obtain ⟨e, e00, e01, e02, -⟩ := idx_facts t
  show V m c main_v5 (((cfg0.win 0).blk t).view.emb (ix3 0 p k)) = _
  rw [V_v5]
  refine congrArg (nrm (m (c, Proc.tc.devRef main_arg0))) (funext fun a => Fin.ext ?_)
  match a with
  | ⟨0, _⟩ => show win0_0.index t (0 : Fin 3) * 1 + 1 * 0 = (grid0.coords t (0 : Fin 1)).val; omega
  | ⟨1, _⟩ => show win0_0.index t (1 : Fin 3) * 196 + 1 * p.val = p.val; omega
  | ⟨2, _⟩ => show win0_0.index t (2 : Fin 3) * 768 + 1 * k.val = k.val; omega

/-- The second window's block is the whole table of `A`'s patches: row `col` is patch `col % 196` of image `col / 196`. -/
theorem blk1 (c : Dev nD) (t : Fin cfg0.N) (col : Fin 6272) (k : Fin 768) :
    iblk m c 1 t (ix2 col k) = argA m c (ix3 (colImg col) (colPatch col) k) := by
  obtain ⟨-, -, -, -, e10, e11, -⟩ := idx_facts t
  show V m c main_v12 (((cfg0.win 1).blk t).view.emb (ix2 col k)) = _
  rw [V_v12]
  have he : ((cfg0.win 1).blk t).view.emb (ix2 col k) = ix2 col k := funext fun a => Fin.ext (by
    match a with
    | ⟨0, _⟩ => show win0_1.index t (0 : Fin 2) * 6272 + 1 * col.val = col.val; omega
    | ⟨1, _⟩ => show win0_1.index t (1 : Fin 2) * 768 + 1 * k.val = k.val; omega)
  rw [he]
  exact Cert.LibConcat3.shapeCast_planes_rows_apply _ _ (colImg col) (colPatch col) k col (col_val col)

/-- The third window's block is the whole table of `B`'s patches. -/
theorem blk2 (c : Dev nD) (t : Fin cfg0.N) (col : Fin 6272) (k : Fin 768) :
    iblk m c 2 t (ix2 col k) = argB m c (ix3 (colImg col) (colPatch col) k) := by
  obtain ⟨-, -, -, -, -, -, e20, e21, -⟩ := idx_facts t
  show V m c main_v13 (((cfg0.win 2).blk t).view.emb (ix2 col k)) = _
  rw [V_v13]
  have he : ((cfg0.win 2).blk t).view.emb (ix2 col k) = ix2 col k := funext fun a => Fin.ext (by
    match a with
    | ⟨0, _⟩ => show win0_2.index t (0 : Fin 2) * 6272 + 1 * col.val = col.val; omega
    | ⟨1, _⟩ => show win0_2.index t (1 : Fin 2) * 768 + 1 * k.val = k.val; omega)
  rw [he]
  exact Cert.LibConcat3.shapeCast_planes_rows_apply _ _ (colImg col) (colPatch col) k col (col_val col)

/-- The first row of the fourth window's block sends a column to its image. -/
theorem blk3 (c : Dev nD) (t : Fin cfg0.N) (col : Fin 6272) :
    View.ld (iblk m c 3 t) r0_2 (ix2 0 col) = BitVec.ofNat 32 (colImg col).val := by
  obtain ⟨-, -, -, -, -, -, -, -, e30, e31, -⟩ := idx_facts t
  show V m c main_v17 (((cfg0.win 3).blk t).view.emb (r0_2.emb (ix2 0 col))) = _
  rw [V_v17]
  have he : ((cfg0.win 3).blk t).view.emb (r0_2.emb (ix2 0 col)) = ix2 0 col := funext fun a => Fin.ext (by
    match a with
    | ⟨0, _⟩ => show win0_3.index t (0 : Fin 2) * 8 + 1 * (0 + 1 * 0) = 0; omega
    | ⟨1, _⟩ => show win0_3.index t (1 : Fin 2) * 6272 + 1 * (0 + 1 * col.val) = col.val; omega)
  rw [he]
  exact ColTable.tab8_apply 0 col

/-! ## What each point writes back, and the output arrays after the launch -/

/-- The first output array after the launch: image `i`'s positive sum, everywhere in block `i`. -/
def outPos (A : Arr) : S32x8x128.Idx → EReal := fun idx => posRow A ⟨(idx 0).val, (idx 0).isLt⟩
/-- The second output array after the launch: image `i`'s negative sum, everywhere in block `i`. -/
def outNeg (A B : Arr) : S32x8x128.Idx → EReal := fun idx => negRow A B ⟨(idx 0).val, (idx 0).isLt⟩

/-- What point `t` writes back to the first output array is block `t` of `outPos A`. -/
theorem flushed4_eq (c : Dev nD) (t : Fin cfg0.N) :
    (dats m 0 c).flushed 4 t = ((cfg0.win 4).blk t).view.read (Elt Ideal) (outPos (argA m c)) := by
  show (cfg0.win 4).cut (grid0.coords t) ((dats m 0 c).after 4 t) = _
  rw [after0_4]
  unfold out0_4
  rw [View.canon_unit_zero hz3]
  simp only [View.ld_unit_zero (S := S1x196x768) hz3, View.ld_unit_zero (S := S6272x768) hz2]
  funext y
  obtain ⟨e, -, -, -, -, -, -, -, -, -, e40, -⟩ := idx_facts t
  show k0_pay3 (F := Ideal) (grid0.coords t) (iblk m c 0 t) (iblk m c 1 t) (View.ld (iblk m c 3 t) r0_2) y
    = outPos (argA m c) (((cfg0.win 4).blk t).view.emb y)
  refine (PayValue.pay3_apply (grid0.coords t) (iblk m c 0 t) (iblk m c 1 t) (View.ld (iblk m c 3 t) r0_2) (argA m c)
    (fun p k => blk0 m c t p k) (fun col k => blk1 m c t col k) (fun col => blk3 m c t col) y).trans ?_
  have hy : (y 0).val < 1 := (y 0).isLt
  refine congrArg (posRow (argA m c)) (Fin.ext ?_)
  show (grid0.coords t (0 : Fin 1)).val = win0_4.index t (0 : Fin 3) * 1 + 1 * (y 0).val
  omega

/-- What point `t` writes back to the second output array is block `t` of `outNeg A B`. -/
theorem flushed5_eq (c : Dev nD) (t : Fin cfg0.N) :
    (dats m 0 c).flushed 5 t = ((cfg0.win 5).blk t).view.read (Elt Ideal) (outNeg (argA m c) (argB m c)) := by
  show (cfg0.win 5).cut (grid0.coords t) ((dats m 0 c).after 5 t) = _
  rw [after0_5]
  unfold out0_5
  rw [View.canon_unit_zero hz3]
  simp only [View.ld_unit_zero (S := S1x196x768) hz3, View.ld_unit_zero (S := S6272x768) hz2]
  funext y
  obtain ⟨e, -, -, -, -, -, -, -, -, -, -, -, -, e50, -⟩ := idx_facts t
  show k0_pay1 (F := Ideal) (k0_pay4 (F := Ideal) (iblk m c 0 t) (iblk m c 2 t)) y
    = outNeg (argA m c) (argB m c) (((cfg0.win 5).blk t).view.emb y)
  rw [PayValue.pay1_apply]
  refine (PayValue.pay4_apply (iblk m c 0 t) (iblk m c 2 t) (argA m c) (argB m c)
    ⟨(grid0.coords t (0 : Fin 1)).val, (grid0.coords t (0 : Fin 1)).isLt⟩
    (fun p k => blk0 m c t p k) (fun col k => blk2 m c t col k)).trans ?_
  have hy : (y 0).val < 1 := (y 0).isLt
  refine congrArg (negRow (argA m c) (argB m c)) (Fin.ext ?_)
  show (grid0.coords t (0 : Fin 1)).val = win0_5.index t (0 : Fin 3) * 1 + 1 * (y 0).val
  omega

/-- An index of an output array is in point `t`'s block iff each coordinate is in the block's range on its axis. -/
theorem mem_blk4 (t : Fin cfg0.N) (i : S32x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v18_0).slice (win0_4.rect t)).set ↔ _
  rw [View.set_slice_whole, Rect.mem_set_unit]
  exact Iff.rfl
theorem mem_blk5 (t : Fin cfg0.N) (i : S32x8x128.Idx) :
    i ∈ ((cfg0.win 5).blk t).view.set ↔ ∀ a : Fin 3, win0_5.index t a * S1x8x128.size a ≤ (i a).val ∧ (i a).val < win0_5.index t a * S1x8x128.size a + S1x8x128.size a := by
  show i ∈ ((View.whole main_v18_1).slice (win0_5.rect t)).set ↔ _
  rw [View.set_slice_whole, Rect.mem_set_unit]
  exact Iff.rfl

/-- Every index `(i, r, l)` of the first output array lies in the block of point `i`. -/
theorem cover4 (i : S32x8x128.Idx) : ∃ t : Fin cfg0.N, (cfg0.win 4).flush t = true ∧ i ∈ ((cfg0.win 4).blk t).view.set := by
  have h0 : (i 0).val < 32 := (i 0).isLt
  have h1 : (i 1).val < 8 := (i 1).isLt
  have h2 : (i 2).val < 128 := (i 2).isLt
  obtain ⟨t, ht⟩ : ∃ t : Fin cfg0.N, t.val = (i 0).val := ⟨⟨(i 0).val, by rw [show cfg0.N = 32 from N_0]; exact h0⟩, rfl⟩
  obtain ⟨-, -, -, -, -, -, -, -, -, -, e40, e41, e42, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 8 ≤ (i 1).val ∧ (i 1).val < win0_4.index t (1 : Fin 3) * 8 + 8; omega
  | ⟨2, _⟩ => show win0_4.index t (2 : Fin 3) * 128 ≤ (i 2).val ∧ (i 2).val < win0_4.index t (2 : Fin 3) * 128 + 128; omega
theorem cover5 (i : S32x8x128.Idx) : ∃ t : Fin cfg0.N, (cfg0.win 5).flush t = true ∧ i ∈ ((cfg0.win 5).blk t).view.set := by
  have h0 : (i 0).val < 32 := (i 0).isLt
  have h1 : (i 1).val < 8 := (i 1).isLt
  have h2 : (i 2).val < 128 := (i 2).isLt
  obtain ⟨t, ht⟩ : ∃ t : Fin cfg0.N, t.val = (i 0).val := ⟨⟨(i 0).val, by rw [show cfg0.N = 32 from N_0]; exact h0⟩, rfl⟩
  obtain ⟨-, -, -, -, -, -, -, -, -, -, -, -, -, e50, e51, e52⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 8 ≤ (i 1).val ∧ (i 1).val < win0_5.index t (1 : Fin 3) * 8 + 8; omega
  | ⟨2, _⟩ => show win0_5.index t (2 : Fin 3) * 128 ≤ (i 2).val ∧ (i 2).val < win0_5.index t (2 : Fin 3) * 128 + 128; omega

/-- The first output array after the launch. -/
theorem final4 (c : Dev nD) : (dats m 0 c).arrAt 4 cfg0.N = outPos (argA m c) :=
  (dats m 0 c).arrAt_eq_of_cover 4 (outPos (argA m c)) (fun t _ => flushed4_eq m c t) cover4
/-- The second output array after the launch. -/
theorem final5 (c : Dev nD) : (dats m 0 c).arrAt 5 cfg0.N = outNeg (argA m c) (argB m c) :=
  (dats m 0 c).arrAt_eq_of_cover 5 (outNeg (argA m c) (argB m c)) (fun t _ => flushed5_eq m c t) cover5

/-! ## The operations after the launch -/

/-- Entry `(i, 0, 0)` of an output array, as the program's slice and reshape read it. -/
theorem firstEntries (X : (⟨S32x8x128, .f32⟩ : BufTy).Contents (Elt Ideal)) (i : Fin 32) :
    shapeCast S32 (extractStridedSlice S32x1x1 ![0, 0, 0] X slices_S32x8x128_S32x1x1_0_0_0) shapeCasts_S32x1x1_S32 (ix1 i)
      = X (ix3 i 0 0) :=
  (shapeCast_apply _ shapeCasts_S32x1x1_S32 (ix1 i) (ix3 i 0 0) (by
    rw [Shape.rowMajor_val_three, Shape.rowMajor_val_one]
    show (i.val * 1 + 0) * 1 + 0 = i.val
    omega)).trans
  (extractStridedSlice_apply ![0, 0, 0] X slices_S32x8x128_S32x1x1_0_0_0 (ix3 i 0 0) (ix3 i 0 0) (fun a => by
    match a with
    | ⟨0, _⟩ => show i.val = 0 + i.val; omega
    | ⟨1, _⟩ => show 0 = 0 + 0; rfl
    | ⟨2, _⟩ => show 0 = 0 + 0; rfl))

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- The host's sum of a 32-vector from the zero word is the sum of its entries. -/
theorem sum32 (Y : (⟨S32, .f32⟩ : BufTy).Contents (Elt Ideal)) (x : S_.Idx) :
    Host.reduceAdd (F := Ideal) Y (constant (F := Ideal) S_ .f32 0x00000000#32) reducesTo_S32_S_d0 h_S_ x = ∑ k : Fin 32, Y (ix1 k) := by
  simp only [Host.reduceAdd, Ideal.hostReduceAdd_def]
  rw [Ideal.hostReduceAdd_total reducesTo_S32_S_d0 (fun b => b.elim0)]
  have h0 : constant (F := Ideal) S_ .f32 0x00000000#32 (Shape.Idx.first h_S_) = 0 := Ideal.ofBits_zero_f32
  rw [h0, zero_add]
  exact sum_idx1 Y

/-- The program's result buffer after its last operations: the loss of the two normalised arguments. -/
theorem tail_eq (c : Dev nD) :
    (Pipeline.afterTail₀ cfgs (dats m) 0 (V0 m) [hostOps1] c main_v27 : (⟨S_, .f32⟩ : BufTy).Contents (Elt Ideal))
      = fun _ => loss (argA m c) (argB m c) := by
  unfold Pipeline.afterTail₀
  show StableHlo.after hostOps1 _ (Proc.devRef .tc main_v27) = _
  after_results_simp
  have w4 : Pipeline.withArrays (cfgs 0).spec c (V0 m c) (fun w => (dats m 0 c).arrAt w (cfgs 0).N) (Proc.tc.devRef main_v18_0)
      = outPos (argA m c) :=
    (Pipeline.withArrays_arr spec0 launch0.win.arr_inj c (V0 m c) (fun w => (dats m 0 c).arrAt w cfg0.N) 4).trans (final4 m c)
  have w5 : Pipeline.withArrays (cfgs 0).spec c (V0 m c) (fun w => (dats m 0 c).arrAt w (cfgs 0).N) (Proc.tc.devRef main_v18_1)
      = outNeg (argA m c) (argB m c) :=
    (Pipeline.withArrays_arr spec0 launch0.win.arr_inj c (V0 m c) (fun w => (dats m 0 c).arrAt w cfg0.N) 5).trans (final5 m c)
  rw [w4, w5]
  funext x
  show Ideal.div (Host.reduceAdd (F := Ideal) (fun i => shapeCast S32 (extractStridedSlice S32x1x1 ![0, 0, 0] (outPos (argA m c)) slices_S32x8x128_S32x1x1_0_0_0) shapeCasts_S32x1x1_S32 i) (constant (F := Ideal) S_ .f32 0x00000000#32) reducesTo_S32_S_d0 h_S_ x) nPos
      + Ideal.div (Host.reduceAdd (F := Ideal) (fun i => shapeCast S32 (extractStridedSlice S32x1x1 ![0, 0, 0] (outNeg (argA m c) (argB m c)) slices_S32x8x128_S32x1x1_0_0_0) shapeCasts_S32x1x1_S32 i) (constant (F := Ideal) S_ .f32 0x00000000#32) reducesTo_S32_S_d0 h_S_ x) nNeg
    = loss (argA m c) (argB m c)
  rw [sum32, sum32]
  unfold loss posSum negSum
  refine congrArg₂ (fun a b => Ideal.div a nPos + Ideal.div b nNeg) (Finset.sum_congr rfl fun k _ => ?_) (Finset.sum_congr rfl fun k _ => ?_)
  · exact firstEntries (outPos (argA m c)) k
  · exact firstEntries (outNeg (argA m c) (argB m c)) k

/-! ## The run -/

/-- Every weakly fair execution of the kernel program terminates with its result at the loss of its two normalised
    arguments and the arguments unchanged. -/
theorem run : θ_run defs (onTc (τ := τ) (main (F := Ideal))) ⟨m, fun _ => 0, ρ⟩ fun r => ∀ c : Dev nD,
      r.2.mem ((c.tc : Thread nD τ).loc main_v27) = (fun _ => loss (argA m c) (argB m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v27 (Pipeline.mem_restRefs_of main_v27 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KValue

end
-- ==== Proof.lean ====
/-
  The kernel computes the contrastive patch loss of its reference, on the extended reals.

  Both programs first divide every 768-feature row of their two [32, 196, 768] arguments by its Euclidean norm plus the
  same small constant (the kernel's change of float format afterwards is the identity on the extended reals); call the
  results A and B.  With  sim X Y i j q = max_p Σ_k X[i,p,k] · Y[j,q,k]  (a running maximum from -∞ over the 196
  patches p of image i), both programs then compute
      loss A B = (Σ_{i,j,q} [i < j] · (1 − sim A A i j q)) / 97216 + (Σ_{i,j,q} max (sim A B i j q − 1/2) 0) / 200704.
  The reference forms the whole array of inner products, transposes it, reduces and sums every entry at once.  The
  kernel works image by image: at grid point i it multiplies image i's 196 × 768 patches against the table of all
  6272 = 32 · 196 patches (column j · 196 + q is patch q of image j), takes column maxima, masks column c by
  [i < c / 196] read from a precomputed table, and sums the columns; the host then adds the 32 per-image sums.  The
  two agree because a sum over the 6272 columns of a function of (c / 196, c % 196) is the double sum over (j, q),
  sums on the extended reals may be regrouped freely, and products commute; no cancellation or distribution is used,
  so the finiteness of the inputs is never needed.

  The three frame conjuncts: each program runs to completion without fault and leaves its arguments as launched (the
  reference's is its run with the result dropped).  The idealization rewrote no operation, so that conjunct is trivial.
-/
import proofs.«126143_j24739011625310_2_alg».proof.Defs
import proofs.«126143_j24739011625310_2_alg».proof.Proof.Gen.Kernel
import proofs.«126143_j24739011625310_2_alg».proof.Proof.Gen.Kernel.Skeleton
import proofs.«126143_j24739011625310_2_alg».proof.Proof.Gen.Kernel.Launch
import proofs.«126143_j24739011625310_2_alg».proof.Proof.Gen.Kernel.Points
import proofs.«126143_j24739011625310_2_alg».proof.Proof.FrameKernel
import proofs.«126143_j24739011625310_2_alg».proof.Proof.Gen.KernelIdeal
import proofs.«126143_j24739011625310_2_alg».proof.Proof.Gen.KernelIdeal.Skeleton
import proofs.«126143_j24739011625310_2_alg».proof.Proof.Gen.KernelIdeal.Launch
import proofs.«126143_j24739011625310_2_alg».proof.Proof.Gen.KernelIdeal.Points
import proofs.«126143_j24739011625310_2_alg».proof.Proof.FrameKernelIdeal
import proofs.«126143_j24739011625310_2_alg».proof.Proof.Gen.ReferenceIdeal
import proofs.«126143_j24739011625310_2_alg».proof.Proof.Gen.ReferenceIdeal.Run
import proofs.«126143_j24739011625310_2_alg».proof.Proof.Gen.ReferenceIdeal.Read
import proofs.«126143_j24739011625310_2_alg».proof.Proof.Gen.Pre_finite_inputs
import proofs.«126143_j24739011625310_2_alg».proof.Proof.RefValue
import proofs.«126143_j24739011625310_2_alg».proof.Proof.KernelValue
import Idealize.ShloMosaic.Adequacy
import Idealize.ShloMosaic.Init

noncomputable section

namespace Cert.Proof

open Idealize.ShloMosaic Idealize.SL.Sem

/-- The two programs normalise an argument by the same operations. -/
theorem nrm_eq_v4 (x : (⟨Cert.KernelIdeal.S32x196x768, .f32⟩ : BufTy).Contents (Elt Ideal)) :
    Cert.ReferenceIdeal.Read.val_main_v4 (F := Ideal) x = Cert.KernelIdeal.HostValue.nrm x := rfl
theorem nrm_eq_v9 (x : (⟨Cert.KernelIdeal.S32x196x768, .f32⟩ : BufTy).Contents (Elt Ideal)) :
    Cert.ReferenceIdeal.Read.val_main_v9 (F := Ideal) x = Cert.KernelIdeal.HostValue.nrm x := rfl

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the two arguments, both idealized programs end with their result at the loss of
    the two normalised arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v35_eq _ _).trans ((Cert.ReferenceIdeal.RefValue.result_eq _ _).trans ?_)
  rw [nrm_eq_v4, nrm_eq_v9]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
